-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x64 .f32) (main_arg1 : FVec F S8192x64 .f32) (main_arg2 : FVec F S8192x8192 .f32) (main_arg3 : FVec F S_ .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x64 : Shape := ⟨2, ![8192, 64]⟩
abbrev S8192x8192 : Shape := ⟨2, ![8192, 8192]⟩
abbrev S_ : Shape := ⟨0, ![]⟩
abbrev S8x8x128 : Shape := ⟨3, ![8, 8, 128]⟩
abbrev S1024x2048 : Shape := ⟨2, ![1024, 2048]⟩
abbrev S2048x64 : Shape := ⟨2, ![2048, 64]⟩
abbrev S1024x64 : Shape := ⟨2, ![1024, 64]⟩
abbrev S1x8x128 : Shape := ⟨3, ![1, 8, 128]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x1x1 : Shape := ⟨3, ![1, 1, 1]⟩
abbrev S8x1x1 : Shape := ⟨3, ![8, 1, 1]⟩
abbrev S8 : Shape := ⟨1, ![8]⟩
abbrev S64x64 : Shape := ⟨2, ![64, 64]⟩

abbrev nBuf : Space → Nat
  | .hbm => 15
  | .vmem => 9
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S_, .f32⟩
  | .hbm, ⟨4, _⟩ => ⟨S8x8x128, .f32⟩
  | .hbm, ⟨5, _⟩ => ⟨S8x1x1, .f32⟩
  | .hbm, ⟨6, _⟩ => ⟨S8, .f32⟩
  | .hbm, ⟨7, _⟩ => ⟨S_, .f32⟩
  | .hbm, ⟨8, _⟩ => ⟨S_, .f32⟩
  | .hbm, ⟨9, _⟩ => ⟨S64x64, .f32⟩
  | .hbm, ⟨10, _⟩ => ⟨S64x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x64, .f32⟩
  | .local _ .vmem, ⟨5, _⟩ => ⟨S1024x64, .f32⟩
  | .local _ .vmem, ⟨6, _⟩ => ⟨S1x8x128, .f32⟩
  | .local _ .vmem, ⟨7, _⟩ => ⟨S1x8x128, .f32⟩
  | .local _ .vmem, ⟨8, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S8x8x128_S8x1x1_0_0_0 : S8x8x128.Slices ![0, 0, 0] S8x1x1
  shapeCasts_S8x1x1_S8 : S8x1x1.ShapeCasts S8
  reducesTo_S8_S_d0 : S8.ReducesTo [0] S_
  h_S_ : 0 < S_.numel
  reducesTo_S64x64_S_d0_1 : S64x64.ReducesTo [0, 1] S_
  dot_S1024x2048_S2048x64_S1024x64_1_0_0_1_n_n_wf : DotDims.WF S1024x2048 S2048x64 S1024x64 [1] [0] [0] [1] [] []
  dot_S8192x64_S8192x64_S64x64_0_0_1_1_n_n_wf : DotDims.WF S8192x64 S8192x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .f32 = 32 ∨ (Rect.block (s := S8192x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S64x64 : Shape := ⟨2, ![64, 64]⟩

abbrev nBuf : Space → Nat
  | .hbm => 14
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x8192, .f32⟩
  | .hbm, ⟨3, _⟩ => ⟨S_, .f32⟩
  | .hbm, ⟨4, _⟩ => ⟨S8192x64, .f32⟩
  | .hbm, ⟨5, _⟩ => ⟨S8192x64, .f32⟩
  | .hbm, ⟨6, _⟩ => ⟨S_, .f32⟩
  | .hbm, ⟨7, _⟩ => ⟨S_, .f32⟩
  | .hbm, ⟨8, _⟩ => ⟨S64x64, .f32⟩
  | .hbm, ⟨9, _⟩ => ⟨S64x64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  reducesTo_S8192x64_S_d0_1 : S8192x64.ReducesTo [0, 1] S_
  h_S_ : 0 < S_.numel
  reducesTo_S64x64_S_d0_1 : S64x64.ReducesTo [0, 1] S_
  dot_S8192x8192_S8192x64_S8192x64_1_0_0_1_n_n_wf : DotDims.WF S8192x8192 S8192x64 S8192x64 [1] [0] [0] [1] [] []
  dot_S8192x64_S8192x64_S64x64_0_0_1_1_n_n_wf : DotDims.WF S8192x64 S8192x64 S64x64 [0] [0] [1] [1] [] []

variable [Facts₀]

def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S8192x64_S64x64_0_0_1_1_n_n : DotDims S8192x64 S8192x64 S64x64 where
  lhsContracting := [0]
  rhsContracting := [0]
  lhsNonContracting := [1]
  rhsNonContracting := [1]
  lhsBatch := []
  rhsBatch := []
  wf := dot_S8192x64_S8192x64_S64x64_0_0_1_1_n_n_wf

class Facts : Prop extends Facts₀ where

variable [Facts]
-- ==== Proof.KBase.lean ====
import proofs.«121765_j575525618299_2_alg».proof.Proof.Gen.Kernel.Launch
import proofs.«121765_j575525618299_2_alg».proof.Proof.Gen.Kernel.Skeleton
import proofs.«121765_j575525618299_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is the kernel region followed by ten host operations; nothing runs before the region, so the
region finds every buffer as launched. -/

/-- The buffer contents the region is entered with, as a valuation: the launch contents. -/
abbrev entryVal (c : Dev nD) : Valuation τ sig (Elt F) := StableHlo.after (List.flatten []) (fun b => m (c, b))
/-- The same read at a TensorCore reference. -/
abbrev entryAt (c : Dev nD) (b : Ref sig .tc) : Buf (Elt F) ((c : Thread nD τ).loc b) := entryVal m c (Proc.devRef .tc b)

theorem tail_fresh : (hostOps1 : List (HloOp τ sig (Elt F))).Forall fun op => op.fresh = ∅ := by
  simp only [List.Forall]; repeat' constructor

/-- The program reduces to the region continued by the ten host operations, every buffer still at its launch contents. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall])
    (by simp only [List.Forall]) main_chain

theorem entryAt_arg0 (c : Dev nD) : entryAt m c main_arg0 = m ((c : Thread nD τ).loc main_arg0) := rfl
theorem entryAt_arg1 (c : Dev nD) : entryAt m c main_arg1 = m ((c : Thread nD τ).loc main_arg1) := rfl
theorem entryAt_arg2 (c : Dev nD) : entryAt m c main_arg2 = m ((c : Thread nD τ).loc main_arg2) := rfl
theorem entryAt_arg3 (c : Dev nD) : entryAt m c main_arg3 = m ((c : Thread nD τ).loc main_arg3) := rfl

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's staging buffer holds the window's block at every point, whether the point fetches it or the index
    has not moved since the last fetch, as long as the body leaves the block in place. -/
theorem found_in0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's two branch conditions over the grid

The grid is 8 × 4, the second coordinate the contraction step `k`: point `t` has `k = t mod 4`. -/

/-- The accumulator is reset where `k = 0`. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The row tile's total is stored where `k = 3`. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last contraction step nothing is stored into the output window, -/
theorem idle3 : ∀ t : Fin cfg0.N, ¬isLast (grid0.coords t) → cfg0.idle 3 (grid0.coords t) = true := by decide +kernel
/-- and its block is not written back there. -/
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

/-- One staging buffer of the output window, through which its contents are stated. -/
abbrev outView : View sig .tc .vmem S1x8x128 .f32 := (Memref.whole cc0_stg3_0 : Memref sig .tc .vmem S1x8x128 .f32).view
abbrev mr0 (t : Fin cfg0.N) : Memref sig .tc .vmem S1024x2048 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S2048x64 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S1024x64 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x8x128 .f32 := win0_3.stage (cfg0.slots t 3)
abbrev wh3 (t : Fin cfg0.N) : (mr3 t).IsWhole := hstage0_3 ((cfg0.slots t 3).cast nbuf0_3)
/-- The accumulator: a scratch buffer of the kernel's own, carried from point to point. -/
abbrev accM : Memref sig .tc .vmem S1024x64 .f32 := Memref.whole cc0_scratch0
abbrev accView : View sig .tc .vmem S1024x64 .f32 := accM.view

/-- The scoped buffers no window stages are the accumulator alone, owned at some contents. -/
theorem scopedRest_acc (c : Dev nD) :
    (Pipeline.scopedRest spec0 c : sProp 𝕄) = iprop(∃ d, owns (c : Thread nD τ) accM fullShare d) := by
  rw [scopedRest0_eq]; simp only [accM, owns_whole]; try rfl

end Cert.Kernel.Fr

end
-- ==== Proof.KRunA.lean ====
import proofs.«121765_j575525618299_2_alg».proof.Proof.KBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the contraction step is the first of its row tile (`k = 0`): on whole memrefs, the three input
    blocks at `x0 x1 x2`, the output block at any `xo` (handed back untouched), the accumulator at anything, the body
    runs and leaves the accumulator with the pieces `LS` written (first the zero fill, then zero plus the block
    product); the pieces are what the symbolic run finds. -/
noncomputable def runFirst (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i)
    (x0 : Vec F S1024x2048 .f32) (x1 : Vec F S2048x64 .f32) (x2 : Vec F S1024x64 .f32) :
    { LS : List (View.Piece (Elt F) S1024x64 .f32) //
      ∀ (xo : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, fun xo E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := ha2.eq_unread hf0; obtain rfl := ha3.eq_unread hf1; obtain rfl := ha4.eq_unread hf2; obtain rfl := ha5.eq_unread hf3
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    iexists _; iexact H6

end Cert.Kernel.Fr

end
-- ==== Proof.KRunB.lean ====
import proofs.«121765_j575525618299_2_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a middle contraction step (`k = 1, 2`): the accumulator, found at the contents `xs` the step before
    left, ends with the pieces `LS` written (its contents plus the block product); inputs and the output block are
    handed back untouched. -/
noncomputable def runMiddle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i)
    (x0 : Vec F S1024x2048 .f32) (x1 : Vec F S2048x64 .f32) (x2 : Vec F S1024x64 .f32) (xs : Vec F S1024x64 .f32) :
    { LS : List (View.Piece (Elt F) S1024x64 .f32) //
      ∀ (xo : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare xs
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, fun xo E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    obtain rfl := ha2.eq_unread hf0; obtain rfl := ha3.eq_unread hf1; obtain rfl := ha4.eq_unread hf2; obtain rfl := ha5.eq_unread hf3; obtain rfl := ha6.eq_unread hf6
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    iexists _; iexact H6

end Cert.Kernel.Fr

end
-- ==== Proof.KRunC.lean ====
import proofs.«121765_j575525618299_2_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last contraction step (`k = 3`): the accumulator, found at `xs`, ends with the pieces `LS`
    written, and the output block — found at anything — with the pieces `LO` (the row tile's total, broadcast);
    the inputs are handed back untouched. -/
noncomputable def runLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i)
    (x0 : Vec F S1024x2048 .f32) (x1 : Vec F S2048x64 .f32) (x2 : Vec F S1024x64 .f32) (xs : Vec F S1024x64 .f32) :
    Σ' (LO : List (View.Piece (Elt F) S1x8x128 .f32)), { LS : List (View.Piece (Elt F) S1024x64 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, ⟨%f6, %hf6, H6⟩, Hk⟩
    obtain rfl := ha2.eq_unread hf0; obtain rfl := ha3.eq_unread hf1; obtain rfl := ha4.eq_unread hf2; obtain rfl := ha6.eq_unread hf6
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]; · iexists _; iexact H3
    iexists _; iexact H6

end Cert.Kernel.Fr

end
-- ==== Proof.KState.lean ====
import proofs.«121765_j575525618299_2_alg».proof.Proof.KRunC
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the accumulator and in the output block -/

theorem acc_cover_first (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i) (x0 : Vec F S1024x2048 .f32) (x1 : Vec F S2048x64 .f32) (x2 : Vec F S1024x64 .f32) (y : S1024x64.Idx) :
    ∃ pc ∈ (runFirst c i a2 ha2 a3 ha3 a4 ha4 a5 ha5 a6 ha6 hf hl x0 x1 x2).1, y ∈ pc.1.set :=
  View.cover_of_tiledL (runFirst c i a2 ha2 a3 ha3 a4 ha4 a5 ha5 a6 ha6 hf hl x0 x1 x2).1 S1024x64.size (by sl_kernel_rfl) y

/-- The accumulator after a first step: the run's pieces read back. -/
def accFirst (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i) (x0 : Vec F S1024x2048 .f32) (x1 : Vec F S2048x64 .f32) (x2 : Vec F S1024x64 .f32) : Vec F S1024x64 .f32 :=
  accView.read (Elt F) (accView.writes (Elt F) accView.junk (runFirst c i a2 ha2 a3 ha3 a4 ha4 a5 ha5 a6 ha6 hf hl x0 x1 x2).1)

theorem acc_cover_middle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i) (x0 : Vec F S1024x2048 .f32) (x1 : Vec F S2048x64 .f32) (x2 : Vec F S1024x64 .f32) (xs : Vec F S1024x64 .f32) (y : S1024x64.Idx) :
    ∃ pc ∈ (runMiddle c i a2 ha2 a3 ha3 a4 ha4 a5 ha5 a6 ha6 hf hl x0 x1 x2 xs).1, y ∈ pc.1.set :=
  View.cover_of_tiledL (runMiddle c i a2 ha2 a3 ha3 a4 ha4 a5 ha5 a6 ha6 hf hl x0 x1 x2 xs).1 S1024x64.size (by sl_kernel_rfl) y

/-- The accumulator after a middle step. -/
def accMiddle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i) (x0 : Vec F S1024x2048 .f32) (x1 : Vec F S2048x64 .f32) (x2 : Vec F S1024x64 .f32) (xs : Vec F S1024x64 .f32) : Vec F S1024x64 .f32 :=
  accView.read (Elt F) (accView.writes (Elt F) accView.junk (runMiddle c i a2 ha2 a3 ha3 a4 ha4 a5 ha5 a6 ha6 hf hl x0 x1 x2 xs).1)

theorem acc_cover_last (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) (y : S1024x64.Idx) :
    ∃ pc ∈ (runLast c i a2 ha2 a3 ha3 a4 ha4 a5 ha5 a6 ha6 hf hl x0 x1 x2 xs).2.1, y ∈ pc.1.set :=
  View.cover_of_tiledL (runLast c i a2 ha2 a3 ha3 a4 ha4 a5 ha5 a6 ha6 hf hl x0 x1 x2 xs).2.1 S1024x64.size (by sl_kernel_rfl) y

/-- The accumulator after a last step. -/
def accLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) : Vec F S1024x64 .f32 :=
  accView.read (Elt F) (accView.writes (Elt F) accView.junk (runLast c i a2 ha2 a3 ha3 a4 ha4 a5 ha5 a6 ha6 hf hl x0 x1 x2 xs).2.1)

theorem out_cover_last (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) (y : S1x8x128.Idx) :
    ∃ pc ∈ (runLast c i a2 ha2 a3 ha3 a4 ha4 a5 ha5 a6 ha6 hf hl x0 x1 x2 xs).1, y ∈ pc.1.set :=
  View.cover_of_tiledL (runLast c i a2 ha2 a3 ha3 a4 ha4 a5 ha5 a6 ha6 hf hl x0 x1 x2 xs).1 S1x8x128.size (by sl_kernel_rfl) y

/-- The output block after a last step. -/
def outLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) : Vec F S1x8x128 .f32 :=
  outView.read (Elt F) (outView.writes (Elt F) outView.junk (runLast c i a2 ha2 a3 ha3 a4 ha4 a5 ha5 a6 ha6 hf hl x0 x1 x2 xs).1)

/-- A placeholder for the output block where nothing is stored into it: consulted nowhere (the window is idle and
    not written back at those points). -/
def outIdle : Vec F S1x8x128 .f32 := outView.read (Elt F) outView.junk

/-! ## The state after each grid point, by recursion on the point -/

/-- The output block and the accumulator after the body at point `n`: a first step starts from nothing, a middle or
    last step from the accumulator the point before left. -/
def stateAt (c : Dev nD) : (n : ℕ) → n < cfg0.N → Vec F S1x8x128 .f32 × Vec F S1024x64 .f32
  | 0, hn => (outIdle, accFirst c (grid0.coords ⟨0, hn⟩) (mr0 ⟨0, hn⟩) (wh0 ⟨0, hn⟩) (mr1 ⟨0, hn⟩) (wh1 ⟨0, hn⟩) (mr2 ⟨0, hn⟩) (wh2 ⟨0, hn⟩) (mr3 ⟨0, hn⟩) (wh3 ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩))
  | n + 1, hn =>
    if h0 : (n + 1) % 4 = 0 then
      (outIdle, accFirst c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩))
    else if h3 : (n + 1) % 4 = 3 then
      (outLast c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) ((isLast_iff ⟨n + 1, hn⟩).mpr h3) (blockAt m c 0 ⟨n + 1, hn⟩) (blockAt m c 1 ⟨n + 1, hn⟩) (blockAt m c 2 ⟨n + 1, hn⟩) (stateAt c n (Nat.lt_of_succ_lt hn)).2,
       accLast c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) ((isLast_iff ⟨n + 1, hn⟩).mpr h3) (blockAt m c 0 ⟨n + 1, hn⟩) (blockAt m c 1 ⟨n + 1, hn⟩) (blockAt m c 2 ⟨n + 1, hn⟩) (stateAt c n (Nat.lt_of_succ_lt hn)).2)
    else
      (outIdle, accMiddle c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) (fun h => h3 ((isLast_iff ⟨n + 1, hn⟩).mp h)) (blockAt m c 0 ⟨n + 1, hn⟩) (blockAt m c 1 ⟨n + 1, hn⟩) (blockAt m c 2 ⟨n + 1, hn⟩) (stateAt c n (Nat.lt_of_succ_lt hn)).2)

theorem stateAt_first (c : Dev nD) (t : Fin cfg0.N) (h0 : t.val % 4 = 0) (h3 : ¬t.val % 4 = 3) :
    stateAt m c t.val t.isLt = (outIdle, accFirst c (grid0.coords t) (mr0 t) (wh0 t) (mr1 t) (wh1 t) (mr2 t) (wh2 t) (mr3 t) (wh3 t) accM (Memref.isWhole_whole _) ((isFirst_iff t).mpr h0) (fun h => h3 ((isLast_iff t).mp h)) (blockAt m c 0 t) (blockAt m c 1 t) (blockAt m c 2 t)) := by
  obtain ⟨n, hn⟩ := t
  cases n with
  | zero => exact rfl
  | succ n => exact (dif_pos h0).trans rfl

theorem stateAt_middle (c : Dev nD) (t : Fin cfg0.N) (h0 : ¬t.val % 4 = 0) (h3 : ¬t.val % 4 = 3) :
    stateAt m c t.val t.isLt = (outIdle, accMiddle c (grid0.coords t) (mr0 t) (wh0 t) (mr1 t) (wh1 t) (mr2 t) (wh2 t) (mr3 t) (wh3 t) accM (Memref.isWhole_whole _) (fun h => h0 ((isFirst_iff t).mp h)) (fun h => h3 ((isLast_iff t).mp h)) (blockAt m c 0 t) (blockAt m c 1 t) (blockAt m c 2 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outLast c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2,
      accLast c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant between points: the accumulator at what the point before left -/

def accInv (c : Dev nD) : (n : ℕ) → n ≤ cfg0.N → sProp 𝕄
  | 0, _ => Pipeline.scopedRest spec0 c
  | n + 1, hn => owns (c : Thread nD τ) accM fullShare ((stateAt m c n hn).2)

theorem accInv_zero (c : Dev nD) (n : ℕ) (h : n ≤ cfg0.N) (hz : n = 0) : accInv m c n h = Pipeline.scopedRest spec0 c := by
  subst hz; rfl

theorem accInv_succ (c : Dev nD) (n : ℕ) (hn : n < cfg0.N) :
    accInv m c (n + 1) hn = owns (c : Thread nD τ) accM fullShare ((stateAt m c n hn).2) := rfl

theorem accInv_pos (c : Dev nD) (n : ℕ) (h : n ≤ cfg0.N) (hz : n ≠ 0) :
    accInv m c n h = owns (c : Thread nD τ) accM fullShare ((stateAt m c (n - 1) (by omega)).2) := by
  cases n with
  | zero => exact absurd rfl hz
  | succ n => rfl

/-! ## The pipeline's proof data -/

/-- Per core: the arrays as the region finds them; after the body each input buffer still at its block and the output
    buffer at `stateAt`'s first component; the invariant `accInv`; nothing owed. Windows 1 and 2 read the same array:
    each holds half of it. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => (stateAt m c t.val t.isLt).1
  Φ t := accInv m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = entryAt m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = (stateAt m c t.val t.isLt).1 := by dsimp only [dats]

theorem found_0 (c : Dev nD) (t : Fin cfg0.N) (d) : (dats m 0 c).before 0 t d = blockAt m c 0 t :=
  found_in0 m (dats m 0 c) (A_eq m c 0) (after_0 m c) t d
theorem found_1 (c : Dev nD) (t : Fin cfg0.N) (d) : (dats m 0 c).before 1 t d = blockAt m c 1 t :=
  found_in1 m (dats m 0 c) (A_eq m c 1) (after_1 m c) t d
theorem found_2 (c : Dev nD) (t : Fin cfg0.N) (d) : (dats m 0 c).before 2 t d = blockAt m c 2 t :=
  found_in2 m (dats m 0 c) (A_eq m c 2) (after_2 m c) t d

end Cert.Kernel.Fr

end
-- ==== Proof.KBody.lean ====
import proofs.«121765_j575525618299_2_alg».proof.Proof.KState

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic point -/

/-- What the body is called with at point `t`: the invariant, nothing owed, each window's current buffer as found. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (mr0 t) fullShare (blockAt m c 0 t) := by
  rw [show (dats m 0 c).leavesExact 0 t = owns (c : Thread nD τ) (mr0 t) fullShare ((dats m 0 c).after 0 t) from by
    unfold Dat.leavesExact; rw [live0 t], after_0]
theorem leaves_in1 (c : Dev nD) (t : Fin cfg0.N) :
    (dats m 0 c).leavesExact 1 t = owns (c : Thread nD τ) (mr1 t) fullShare (blockAt m c 1 t) := by
  rw [show (dats m 0 c).leavesExact 1 t = owns (c : Thread nD τ) (mr1 t) fullShare ((dats m 0 c).after 1 t) from by
    unfold Dat.leavesExact; rw [live1 t], after_1]
theorem leaves_in2 (c : Dev nD) (t : Fin cfg0.N) :
    (dats m 0 c).leavesExact 2 t = owns (c : Thread nD τ) (mr2 t) fullShare (blockAt m c 2 t) := by
  rw [show (dats m 0 c).leavesExact 2 t = owns (c : Thread nD τ) (mr2 t) fullShare ((dats m 0 c).after 2 t) from by
    unfold Dat.leavesExact; rw [live2 t], after_2]

set_option maxHeartbeats 4800000 in
/-- The body at any point: the inputs' buffers hold their blocks; the point's place in its row tile (`t mod 4`) says
    which of the three runs applies; the invariant hands the accumulator over at what the point before left (at
    anything before a first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2]
  have hN : t.val < 32 := lt_of_lt_of_eq t.isLt (show cfg0.N = 32 from N_0)
  by_cases h0 : t.val % 4 = 0
  · have h3 : ¬t.val % 4 = 3 := by omega
    rw [Dat.leavesExact_idle (dats m 0 c) 3 t (idle3 t (fun h => h3 ((isLast_iff t).mp h))) (noFlush3 t (fun h => h3 ((isLast_iff t).mp h)))]
    rw [stateAt_first m c t h0 h3]
    unfold accFirst; (try dsimp only)
    by_cases hz : t.val = 0
    · rw [inv_castSucc m c t, accInv_zero m c _ _ hz, scopedRest_acc]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h3 ((isLast_iff t).mp h)) (blockAt m c 0 t) (blockAt m c 1 t) (blockAt m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (acc_cover_first c _ _ _ _ _ _ _ _ _ _ _ _ _ _ _ _ )
      isplitl [Ho]; · iexact Ho
      isplitl [H0]; · iexact H0
      isplitl [H1]; · iexact H1
      isplitl [H2]; · iexact H2
      iexists _; iexact H3
    · rw [inv_castSucc m c t, accInv_pos m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h3 ((isLast_iff t).mp h)) (blockAt m c 0 t) (blockAt m c 1 t) (blockAt m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (acc_cover_first c _ _ _ _ _ _ _ _ _ _ _ _ _ _ _ _ )
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dats m 0 c).leavesExact 3 t = owns (c : Thread nD τ) (mr3 t) fullShare ((dats m 0 c).after 3 t) from by
        unfold Dat.leavesExact; rw [live3 t ((isLast_iff t).mpr h3)], after_3]
      rw [stateAt_last m c t h0 h3]
      unfold outLast accLast; (try dsimp only)
      rw [inv_castSucc m c t, accInv_pos m c _ _ hz]
      iintro ⟨HS, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h3) (blockAt m c 0 t) (blockAt m c 1 t) (blockAt m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS]
      · unfold owns; iexists _; isplitr
        swap; · iexact HS
        ipureintro; exact View.read_writes_of_cover _ _ _ _ _ (acc_cover_last c _ _ _ _ _ _ _ _ _ _ _ _ _ _ _ _ _ )
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out_cover_last c _ _ _ _ _ _ _ _ _ _ _ _ _ _ _ _ _ )
    · rw [Dat.leavesExact_idle (dats m 0 c) 3 t (idle3 t (fun h => h3 ((isLast_iff t).mp h))) (noFlush3 t (fun h => h3 ((isLast_iff t).mp h)))]
      rw [stateAt_middle m c t h0 h3]
      unfold accMiddle; (try dsimp only)
      rw [inv_castSucc m c t, accInv_pos m c _ _ hz]
      iintro ⟨HS, Ho, ⟨%d0, H0⟩, ⟨%d1, H1⟩, ⟨%d2, H2⟩, ⟨%d3, H3⟩⟩
      iapply ((runMiddle c (grid0.coords t) _ _ _ _ _ _ _ _ _ _ (fun h => h0 ((isFirst_iff t).mp h)) (fun h => h3 ((isLast_iff t).mp h)) (blockAt m c 0 t) (blockAt m c 1 t) (blockAt m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (acc_cover_middle c _ _ _ _ _ _ _ _ _ _ _ _ _ _ _ _ _ )
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.KSharedArr.lean ====
import proofs.«121765_j575525618299_2_alg».proof.Proof.Gen.Kernel.Launch
import Idealize.ShloMosaic.Lib.Pipeline.Launch
import Idealize.ShloMosaic.Lib.Pipeline.FrameSuffix
import Idealize.ShloMosaic.Lib.Pipeline.Frame
import Idealize.ShloMosaic.Lib.Pipeline.Kit

/-!
# Two windows on one array

The pipeline has four windows: window 0 on the array `main_arg2`, windows 1 and 2 BOTH on `main_arg0`, window 3
(the output) on `main_v0`. So the three distinct arrays, each held whole at the full share, are the four windows'
holdings once the points-to of `main_arg0` is cut along the share into its left half (window 1) and its right
half (window 2); and back. The host operations after the region write none of the three arrays, so they run
from the region's exit within the unscoped buffers and leave the arrays as they were.
-/

noncomputable section

namespace Cert.Kernel.Fr

open Cert.Kernel Cert.Kernel.Gen
open Idealize.ShloMosaic Idealize.ShloMosaic.TcCoe
open Idealize.SL Idealize.SL.RA
open Idealize.SL.BI (sProp bigSep bigSepL bigSep_eq_bigSepL_of_eq bigSep_congr)
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The windows' arrays are three distinct buffers. -/
theorem image_arrRef :
    Finset.univ.image (Pipeline.arrRef spec0) = [main_arg2, main_arg0, main_v0].toFinset := by decide

/-- The buffers behind the windows' arrays, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg2) ↦{fullShare} V main_arg2)
          ∗ (((c.tc : Thread nD τ).loc main_arg0) ↦{fullShare} V main_arg0)
          ∗ (((c.tc : Thread nD τ).loc main_v0) ↦{fullShare} V main_v0)) := by
  unfold Pipeline.arrBufs
  exact bigSep_eq_bigSepL_of_eq [main_arg2, main_arg0, main_v0] image_arrRef (by decide) _

section
variable (c : Dev nD) (dat : Pipeline.Dat τ (Elt F) Unit ℕ (UR sig nD τ) ℕ cfg0 c)
  (hq0 : dat.q 0 = fullShare) (hq1 : dat.q 1 = fullShare.left) (hq2 : dat.q 2 = fullShare.right)

include hq0 hq1 hq2 in
/-- The four windows' holdings, one by one: the whole of `main_arg2`, the left and the right half of `main_arg0`,
    the whole of `main_v0`. -/
theorem arrays_eq (A : (w : Fin cfg0.W) → Buf (Elt F) ((cfg0.win w).arr.view.loc (c.tc : Thread nD τ))) :
    (dat.arrays A : sProp 𝕄)
      = iprop((((c.tc : Thread nD τ).loc main_arg2) ↦{fullShare} A 0)
          ∗ (((c.tc : Thread nD τ).loc main_arg0) ↦{fullShare.left} A 1)
          ∗ (((c.tc : Thread nD τ).loc main_arg0) ↦{fullShare.right} A 2)
          ∗ (((c.tc : Thread nD τ).loc main_v0) ↦{fullShare} A 3)) := by
  have s0 : dat.share 0 = fullShare := by unfold Pipeline.Dat.share; rw [if_neg (by decide), hq0]
  have s1 : dat.share 1 = fullShare.left := by unfold Pipeline.Dat.share; rw [if_neg (by decide), hq1]
  have s2 : dat.share 2 = fullShare.right := by unfold Pipeline.Dat.share; rw [if_neg (by decide), hq2]
  have s3 : dat.share 3 = fullShare := by unfold Pipeline.Dat.share; rw [if_pos (by decide)]
  unfold Pipeline.Dat.arrays
  rw [Gen.bigSep_W0, (Gen.arr_whole0 0).set_eq_univ, (Gen.arr_whole0 1).set_eq_univ,
    (Gen.arr_whole0 3).set_eq_univ, s0, s1, s2, s3]

include hq0 hq1 hq2 in
/-- The three arrays held whole make the four windows' holdings: `main_arg0` is cut along the share. -/
theorem arrays_of_bufs (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (Pipeline.arrBufs spec0 c V : sProp 𝕄) ⊢ dat.arrays A := by
  have e0 : A 0 = V main_arg2 := hA 0
  have e1 : A 1 = V main_arg0 := hA 1
  have e2 : A 2 = V main_arg0 := hA 2
  have e3 : A 3 = V main_v0 := hA 3
  rw [arrBufs_eq, arrays_eq c dat hq0 hq1 hq2 A, e0, e1, e2, e3]
  iintro ⟨H2, H0, Hv⟩
  ihave H0 := (pointsTo_share (PosShare.mem_left_op_right fullShare)).1 $$ H0
  icases H0 with ⟨H0l, H0r⟩
  isplitl [H2]
  · iexact H2
  isplitl [H0l]
  · iexact H0l
  isplitl [H0r]
  · iexact H0r
  iexact Hv

include hq0 hq1 hq2 in
/-- The four windows' holdings make the three arrays held whole: the two halves of `main_arg0` are joined. -/
theorem bufs_of_arrays (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    dat.arrays A ⊢ (Pipeline.arrBufs spec0 c V : sProp 𝕄) := by
  have e0 : A 0 = V main_arg2 := hA 0
  have e1 : A 1 = V main_arg0 := hA 1
  have e2 : A 2 = V main_arg0 := hA 2
  have e3 : A 3 = V main_v0 := hA 3
  rw [arrBufs_eq, arrays_eq c dat hq0 hq1 hq2 A, e0, e1, e2, e3]
  iintro ⟨H2, H0l, H0r, Hv⟩
  isplitl [H2]
  · iexact H2
  isplitl [H0l H0r]
  · iapply (pointsTo_share (PosShare.mem_left_op_right fullShare)).2
    isplitl [H0l]
    · iexact H0l
    iexact H0r
  iexact Hv

end

/-! ## The host operations after the region -/

/-- The contents at the region's exit: the output array `main_v0` at `o`, every other buffer as it was. -/
def exitVal (V : Valuation τ sig (Elt F)) (o : (Proc.devRef (τ := τ) .tc main_v0).ty.Contents (Elt F)) :
    Valuation τ sig (Elt F) := fun b =>
  if h : Proc.devRef .tc main_v0 = b then cast (congrArg (fun b' : DevRef τ sig => b'.ty.Contents (Elt F)) h) o else V b

/-- At the output array the exit contents are `o`. -/
theorem exitVal_out (V : Valuation τ sig (Elt F)) (o : (Proc.devRef (τ := τ) .tc main_v0).ty.Contents (Elt F)) :
    exitVal V o (Proc.devRef .tc main_v0) = o := by
  unfold exitVal
  rw [dif_pos rfl]
  rfl

/-- At every other buffer the exit contents are the old ones. -/
theorem exitVal_of_ne (V : Valuation τ sig (Elt F)) (o : (Proc.devRef (τ := τ) .tc main_v0).ty.Contents (Elt F))
    (b : Ref sig .tc) (hb : b ≠ main_v0) : exitVal V o (Proc.devRef .tc b) = V (Proc.devRef .tc b) := by
  unfold exitVal
  rw [dif_neg fun e => hb (Proc.devRef_injective _ e).symm]

section ExitAt
variable (V : Valuation τ sig (Elt F)) (o : (Proc.devRef (τ := τ) .tc main_v0).ty.Contents (Elt F))

theorem exitVal_main_arg0 : exitVal V o (Proc.devRef .tc main_arg0) = V (Proc.devRef .tc main_arg0) := exitVal_of_ne V o _ (by decide)
theorem exitVal_main_arg1 : exitVal V o (Proc.devRef .tc main_arg1) = V (Proc.devRef .tc main_arg1) := exitVal_of_ne V o _ (by decide)
theorem exitVal_main_arg2 : exitVal V o (Proc.devRef .tc main_arg2) = V (Proc.devRef .tc main_arg2) := exitVal_of_ne V o _ (by decide)
theorem exitVal_main_arg3 : exitVal V o (Proc.devRef .tc main_arg3) = V (Proc.devRef .tc main_arg3) := exitVal_of_ne V o _ (by decide)
theorem exitVal_main_v1 : exitVal V o (Proc.devRef .tc main_v1) = V (Proc.devRef .tc main_v1) := exitVal_of_ne V o _ (by decide)
theorem exitVal_main_v2 : exitVal V o (Proc.devRef .tc main_v2) = V (Proc.devRef .tc main_v2) := exitVal_of_ne V o _ (by decide)
theorem exitVal_main_cst : exitVal V o (Proc.devRef .tc main_cst) = V (Proc.devRef .tc main_cst) := exitVal_of_ne V o _ (by decide)
theorem exitVal_main_v3 : exitVal V o (Proc.devRef .tc main_v3) = V (Proc.devRef .tc main_v3) := exitVal_of_ne V o _ (by decide)
theorem exitVal_main_v4 : exitVal V o (Proc.devRef .tc main_v4) = V (Proc.devRef .tc main_v4) := exitVal_of_ne V o _ (by decide)
theorem exitVal_main_v5 : exitVal V o (Proc.devRef .tc main_v5) = V (Proc.devRef .tc main_v5) := exitVal_of_ne V o _ (by decide)
theorem exitVal_main_cst_0 : exitVal V o (Proc.devRef .tc main_cst_0) = V (Proc.devRef .tc main_cst_0) := exitVal_of_ne V o _ (by decide)
theorem exitVal_main_v6 : exitVal V o (Proc.devRef .tc main_v6) = V (Proc.devRef .tc main_v6) := exitVal_of_ne V o _ (by decide)
theorem exitVal_main_v7 : exitVal V o (Proc.devRef .tc main_v7) = V (Proc.devRef .tc main_v7) := exitVal_of_ne V o _ (by decide)
theorem exitVal_main_v8 : exitVal V o (Proc.devRef .tc main_v8) = V (Proc.devRef .tc main_v8) := exitVal_of_ne V o _ (by decide)

end ExitAt

/-- The host operations after the region make no buffer of their own. -/
theorem hostOps1_fresh : (hostOps1 : List (HloOp τ sig (Elt F))).Forall fun op => op.fresh = ∅ := by
  simp only [List.Forall]; repeat' constructor

/-- No host operation after the region writes `main_arg2`. -/
theorem after_main_arg2 (X : Valuation τ sig (Elt F)) :
    StableHlo.after hostOps1 X (Proc.devRef .tc main_arg2) = X (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No host operation after the region writes `main_arg0`. -/
theorem after_main_arg0 (X : Valuation τ sig (Elt F)) :
    StableHlo.after hostOps1 X (Proc.devRef .tc main_arg0) = X (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No host operation after the region writes `main_v0`. -/
theorem after_main_v0 (X : Valuation τ sig (Elt F)) :
    StableHlo.after hostOps1 X (Proc.devRef .tc main_v0) = X (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

section Tail
variable (c : Dev nD) (dat : Pipeline.Dat τ (Elt F) Unit ℕ (UR sig nD τ) ℕ cfg0 c)
  (hq0 : dat.q 0 = fullShare) (hq1 : dat.q 1 = fullShare.left) (hq2 : dat.q 2 = fullShare.right)

include hq0 hq1 hq2 in
/-- The four windows' holdings ARE the three arrays held whole, at contents that agree. -/
theorem arrays_eq_bufs (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (dat.arrays A : sProp 𝕄) = Pipeline.arrBufs spec0 c V :=
  BI.Entails.antisymm (bufs_of_arrays c dat hq0 hq1 hq2 V A hA) (arrays_of_bufs c dat hq0 hq1 hq2 V A hA)

/-- The unscoped buffers held at a valuation are the three arrays and the rest. -/
theorem held_split (X : Valuation τ sig (Elt F)) :
    (StableHlo.held (c.tc : Thread nD τ) (Pipeline.ucRefs τ sig) X : sProp 𝕄)
      = iprop((Pipeline.arrBufs spec0 c (fun b => X (Proc.devRef .tc b)) : sProp 𝕄)
          ∗ Pipeline.unscopedRest spec0 c (fun b => X (Proc.devRef .tc b))) := by
  rw [← Pipeline.unscopedBufs_held (Ix := Unit) (Name := ℕ) (U := UR sig nD τ) (Lvl := ℕ) c X]
  exact Pipeline.unscopedBufs_split₀ cfgs (0 : Fin 1) Gen.winFacts₀0.arr_unscoped c _

include hq0 hq1 hq2 in
set_option backward.isDefEq.respectTransparency.types false in
/-- THE HOST OPERATIONS AFTER THE REGION, run from the region's exit: holding the boundary, the four windows'
    holdings at `A` and the other unscoped buffers at `V`, the ten operations run and hand back the windows'
    holdings at `A` and the other buffers at their contents after the operations, computed from the exit contents. -/
theorem tail_run (V : Valuation τ sig (Elt F))
    (A : (w : Fin cfg0.W) → Buf (Elt F) ((cfg0.win w).arr.view.loc (c.tc : Thread nD τ)))
    (hA0 : A 0 = V (Proc.devRef .tc main_arg2)) (hA1 : A 1 = V (Proc.devRef .tc main_arg0))
    (hA2 : A 2 = V (Proc.devRef .tc main_arg0)) (Q' : PUnit → sProp 𝕄) :
    iprop((iprop(dat.arrays A ∗ Pipeline.unscopedRest spec0 c
              (fun b => StableHlo.after hostOps1 (exitVal V (A 3)) (Proc.devRef .tc b))) -∗ Q' ⟨⟩)
        ∗ boundary (c.tc : Thread nD τ) ∗ dat.arrays A ∗ Pipeline.unscopedRest spec0 c (fun b => V (Proc.devRef .tc b)))
      ⊢ wp frame (wpE (Pipeline.defs (pcfgs (F := F)) defs₀) (Variants.lift Variants.none) (c.tc : Thread nD τ) none) Set.univ
          (Pipeline.chain [StableHlo.seq hostOps1]) Q' := by
  classical
  -- the windows' contents are the exit contents at their arrays
  have hAW : ∀ w, A w = (fun b : Ref sig .tc => exitVal V (A 3) (Proc.devRef .tc b)) (Pipeline.arrRef spec0 w) := fun
    | 0 => hA0.trans (exitVal_main_arg2 V (A 3)).symm
    | 1 => hA1.trans (exitVal_main_arg0 V (A 3)).symm
    | 2 => hA2.trans (exitVal_main_arg0 V (A 3)).symm
    | 3 => (exitVal_out V (A 3)).symm
    | ⟨_ + 4, h⟩ => absurd h (Nat.not_lt.2 (Nat.le_add_left _ _))
  -- and still are after the operations, which write none of the arrays
  have hAW' : ∀ w, A w = (fun b : Ref sig .tc => StableHlo.after hostOps1 (exitVal V (A 3)) (Proc.devRef .tc b))
      (Pipeline.arrRef spec0 w) := fun
    | 0 => (hAW 0).trans (after_main_arg2 _).symm
    | 1 => (hAW 1).trans (after_main_arg0 _).symm
    | 2 => (hAW 2).trans (after_main_arg0 _).symm
    | 3 => (hAW 3).trans (after_main_v0 _).symm
    | ⟨_ + 4, h⟩ => absurd h (Nat.not_lt.2 (Nat.le_add_left _ _))
  -- off the arrays the exit contents are the old ones
  have hrest : (Pipeline.unscopedRest spec0 c (fun b => V (Proc.devRef .tc b)) : sProp 𝕄)
      = Pipeline.unscopedRest spec0 c (fun b => exitVal V (A 3) (Proc.devRef .tc b)) := by
    unfold Pipeline.unscopedRest
    exact bigSep_congr fun b hb => by
      beta_reduce
      rw [exitVal_of_ne V (A 3) b fun e => (Finset.mem_sdiff.mp hb).2
        (e ▸ Finset.mem_image.mpr ⟨(3 : Fin 4), Finset.mem_univ _, rfl⟩)]
  have hW : (StableHlo.held (c.tc : Thread nD τ) (Pipeline.ucRefs τ sig) (exitVal V (A 3)) : sProp 𝕄)
      = iprop(dat.arrays A ∗ Pipeline.unscopedRest spec0 c (fun b => V (Proc.devRef .tc b))) := by
    rw [held_split, hrest, arrays_eq_bufs c dat hq0 hq1 hq2 (fun b => exitVal V (A 3) (Proc.devRef .tc b)) A hAW]
  have hW' : (StableHlo.held (c.tc : Thread nD τ) (Pipeline.ucRefs τ sig)
        (StableHlo.after ([hostOps1] : List (List (HloOp τ sig (Elt F)))).flatten (exitVal V (A 3))) : sProp 𝕄)
      = iprop(dat.arrays A ∗ Pipeline.unscopedRest spec0 c
          (fun b => StableHlo.after hostOps1 (exitVal V (A 3)) (Proc.devRef .tc b))) := by
    rw [show ([hostOps1] : List (List (HloOp τ sig (Elt F)))).flatten = hostOps1 from List.append_nil _,
      held_split, arrays_eq_bufs c dat hq0 hq1 hq2
        (fun b => StableHlo.after hostOps1 (exitVal V (A 3)) (Proc.devRef .tc b)) A hAW']
  have hsub : ∀ ops ∈ ([hostOps1] : List (List (HloOp τ sig (Elt F)))), ∀ op ∈ ops, op.bufs ⊆ Pipeline.ucRefs τ sig := by
    intro ops hops op hop
    obtain rfl : ops = hostOps1 := List.mem_singleton.mp hops
    exact Pipeline.sub_ucRefs op ((List.forall_iff_forall_mem.mp Gen.hostOps1_sub) op hop)
  have hfresh : ∀ ops ∈ ([hostOps1] : List (List (HloOp τ sig (Elt F)))), ∀ op ∈ ops, op.fresh = ∅ := by
    intro ops hops op hop
    obtain rfl : ops = hostOps1 := List.mem_singleton.mp hops
    exact (List.forall_iff_forall_mem.mp hostOps1_fresh) op hop
  rw [← hW]
  show _ ⊢ wp frame (wpE (Pipeline.defs (pcfgs (F := F)) defs₀) (Variants.lift Variants.none) (c.tc : Thread nD τ) none) Set.univ
      (Pipeline.chain (([hostOps1] : List (List (HloOp τ sig (Elt F)))).map StableHlo.seq ++ [])) Q'
  iintro ⟨Hk, Hb⟩
  iapply (Pipeline.wp_seqs_then (pcfgs (F := F)) defs₀ Variants.none c (Pipeline.ucRefs τ sig) [] [hostOps1] hsub hfresh
    (exitVal V (A 3))) $$ Hb
  iintro Hb
  rw [Pipeline.chain_nil, wp_pure, hW']
  imodintro
  iapply Hk
  icases Hb with ⟨-, H⟩
  iexact H

include hq0 hq1 hq2 in
/-- The same, stated at the program's body table. -/
theorem tail_run_defs (V : Valuation τ sig (Elt F))
    (A : (w : Fin cfg0.W) → Buf (Elt F) ((cfg0.win w).arr.view.loc (c.tc : Thread nD τ)))
    (hA0 : A 0 = V (Proc.devRef .tc main_arg2)) (hA1 : A 1 = V (Proc.devRef .tc main_arg0))
    (hA2 : A 2 = V (Proc.devRef .tc main_arg0)) (Q' : PUnit → sProp 𝕄) :
    iprop((iprop(dat.arrays A ∗ Pipeline.unscopedRest spec0 c
              (fun b => StableHlo.after hostOps1 (exitVal V (A 3)) (Proc.devRef .tc b))) -∗ Q' ⟨⟩)
        ∗ boundary (c.tc : Thread nD τ) ∗ dat.arrays A ∗ Pipeline.unscopedRest spec0 c (fun b => V (Proc.devRef .tc b)))
      ⊢ wp frame (wpE (defs (F := F)) (Variants.lift Variants.none) (c.tc : Thread nD τ) none) Set.univ
          (Pipeline.chain [StableHlo.seq hostOps1]) Q' :=
  tail_run c dat hq0 hq1 hq2 V A hA0 hA1 hA2 Q'

end Tail

end Cert.Kernel.Fr

end
-- ==== Proof.KLaunch.lean ====
import proofs.«121765_j575525618299_2_alg».proof.Proof.KBody
import proofs.«121765_j575525618299_2_alg».proof.Proof.KSharedArr

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The two windows that read `main_arg0` hold a half of it each; everything else is the launch of one pipelined region
continued by host operations. -/

theorem q_0 (c : Dev nD) : (dats m 0 c).q 0 = fullShare := by dsimp only [dats]
theorem q_1 (c : Dev nD) : (dats m 0 c).q 1 = fullShare.left := by dsimp only [dats]
theorem q_2 (c : Dev nD) : (dats m 0 c).q 2 = fullShare.right := by dsimp only [dats]

/-- Every buffer's contents when the program ends: the ten host operations applied to the region's exit contents
    (the output array as the region leaves it, every other buffer as launched). -/
abbrev endVal (c : Dev nD) : Valuation τ sig (Elt F) :=
  StableHlo.after hostOps1 (exitVal (entryVal m c) ((dats m 0 c).arrAt 3 cfg0.N))

/-- No host operation after the region writes an argument. -/
theorem after_main_arg1 (X : Valuation τ sig (Elt F)) :
    StableHlo.after hostOps1 X (Proc.devRef .tc main_arg1) = X (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem after_main_arg3 (X : Valuation τ sig (Elt F)) :
    StableHlo.after hostOps1 X (Proc.devRef .tc main_arg3) = X (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- The invariant before the first point is the launch's scoped rest. -/
theorem inv_first (c : Dev nD) : Pipeline.scopedRest spec0 c ⊢ (dats m 0 c).Φ 0 := by
  rw [show (dats m 0 c).Φ 0 = accInv m c 0 (Nat.zero_le _) from rfl, accInv_zero m c 0 _ rfl]
  try exact Idealize.SL.BI.Entails.refl _

/-- After the last point it gives the scoped rest back, the accumulator's contents forgotten. -/
theorem inv_last (c : Dev nD) : (dats m 0 c).Φ (Fin.last cfg0.N) ⊢ Pipeline.scopedRest spec0 c := by
  have hN : cfg0.N = 32 := N_0
  rw [show (dats m 0 c).Φ (Fin.last cfg0.N) = accInv m c (Fin.last cfg0.N).val (Nat.le_of_lt_succ (Fin.last cfg0.N).isLt) from rfl,
    accInv_pos m c _ _ (by rw [Fin.val_last]; omega), scopedRest_acc]
  iintro HS
  iexists _; iexact HS

set_option backward.isDefEq.respectTransparency.types false in
set_option maxHeartbeats 1600000 in
/-- Every weakly fair execution of the program terminates without a fault; at the end the result holds what the
    host operations compute from the output array the region leaves, and the four arguments are unchanged. -/
theorem run_main : θ_run defs (onTc (τ := τ) (main (F := F))) ⟨m, fun _ => 0, ρ⟩ (fun r => ∀ c : Dev nD,
      r.2.mem ((c.tc : Thread nD τ).loc main_v8) = endVal m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  have hcell : Function.Injective (cellOf (nD := nD) (τ := τ) (Pipeline.pin (pcfgs (F := F)) fun q => (cfgs q).toPCfg_adm)) := cellOf_inj
  refine Pipeline.θ_run_region_noSem_pf_tail (pcfgs (F := F)) (fun q => (cfgs q).toPCfg_adm) (dats m) () hcell (0 : Fin 1)
    winFacts₀0 (Pipeline.PreFacts.none _) emb₁ defs₀ Variants.none m ρ main
    (fun _ => Pipeline.chain [StableHlo.seq hostOps1])
    (hbody := fun c => (body_obligation m c).loose) (hne := block_pos0) (harr := arr_whole0) (hstage := stage_whole0)
    (howed := fun _ _ => rfl)
    (u₀ := Rounds.initOf (Pipeline.cells _ hcell) (Pipeline.launchToks _ hcell)) (hu₀ := .rfl)
    (V := entryAt m) (hmain := main_around m Variants.none)
    (hsplit := fun c => arrays_of_bufs c (dats m 0 c) (q_0 m c) (q_1 m c) (q_2 m c) (entryAt m c) _ fun w => ?hA0)
    (hpf := fun _ k => k.elim0)
    (X := fun _ => iprop(emp)) (Y := fun _ => iprop(emp))
    (Z := fun c => Pipeline.unscopedRestP Pipeline.Prefetch.none spec0 c (entryAt m c))
    (Z' := fun c => Pipeline.unscopedRestP Pipeline.Prefetch.none spec0 c (fun b => endVal m c (Proc.devRef .tc b)))
    (hX := fun c => ?hX) (hin := fun c => ?hin) (hout := fun c => ?hout) (htail := fun c Q' => ?htail)
    (QY := fun c s => ∀ b ∈ Pipeline.restRefsP sig Pipeline.Prefetch.none spec0,
      s.mem ((c.tc : Thread nD τ).loc b) = endVal m c (Proc.devRef .tc b))
    (hY := fun c s' => ?hY) (hQ := fun s h c => ?hQ)
  case hA0 => exact (show (dats m 0 c).arrAt w 0 = (dats m 0 c).A w from rfl).trans (A_eq m c w)
  case hX =>
    iintro HU
    isplitr; · iempintro
    iexact HU
  case hin =>
    refine (show _ ⊢ Pipeline.scopedRest spec0 c from ?_).trans (inv_first m c)
    iintro ⟨-, -, HR⟩; iexact HR
  case hout =>
    refine (inv_last m c).trans ?_
    iintro HR
    isplitr; · iempintro
    iexact HR
  case htail =>
    rw [Pipeline.unscopedRestP_none, Pipeline.unscopedRestP_none]
    exact tail_run_defs c (dats m 0 c) (q_0 m c) (q_1 m c) (q_2 m c) (entryVal m c) (fun w => (dats m 0 c).arrAt w cfg0.N)
      (((dats m 0 c).arrAt_in 0 rfl _).trans (A_eq m c 0)) (((dats m 0 c).arrAt_in 1 rfl _).trans (A_eq m c 1))
      (((dats m 0 c).arrAt_in 2 rfl _).trans (A_eq m c 2)) Q'
  case hY =>
    iintro ⟨-, HU, HSI⟩
    unfold Pipeline.unscopedRestP
    imodintro
    iapply (pointsTo_read_all (Pipeline.restRefsP sig Pipeline.Prefetch.none spec0) (fun b => (c.tc : Thread nD τ).loc b)
      (fun b => endVal m c (Proc.devRef .tc b)) s')
    isplitl [HU] <;> iassumption
  case hQ =>
    have hr := (h c).2.2
    refine ⟨hr main_v8 (by decide), ?_, ?_, ?_, ?_⟩
    · exact ((h c).1 1).trans (((dats m 0 c).arrAt_in 1 rfl _).trans ((A_eq m c 1).trans (entryAt_arg0 m c)))
    · exact (hr main_arg1 (by decide)).trans ((after_main_arg1 _).trans ((exitVal_main_arg1 _ _).trans (entryAt_arg1 m c)))
    · exact ((h c).1 0).trans (((dats m 0 c).arrAt_in 0 rfl _).trans ((A_eq m c 0).trans (entryAt_arg2 m c)))
    · exact (hr main_arg3 (by decide)).trans ((after_main_arg3 _).trans ((exitVal_main_arg3 _ _).trans (entryAt_arg3 m c)))

end Cert.Kernel.Fr

end
-- ==== Proof.IBase.lean ====
import proofs.«121765_j575525618299_2_alg».proof.Proof.Gen.KernelIdeal.Launch
import proofs.«121765_j575525618299_2_alg».proof.Proof.Gen.KernelIdeal.Skeleton
import proofs.«121765_j575525618299_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its one region

The program is the kernel region followed by ten host operations; nothing runs before the region, so the
region finds every buffer as launched. -/

/-- The buffer contents the region is entered with, as a valuation: the launch contents. -/
abbrev entryVal (c : Dev nD) : Valuation τ sig (Elt F) := StableHlo.after (List.flatten []) (fun b => m (c, b))
/-- The same read at a TensorCore reference. -/
abbrev entryAt (c : Dev nD) (b : Ref sig .tc) : Buf (Elt F) ((c : Thread nD τ).loc b) := entryVal m c (Proc.devRef .tc b)

theorem tail_fresh : (hostOps1 : List (HloOp τ sig (Elt F))).Forall fun op => op.fresh = ∅ := by
  simp only [List.Forall]; repeat' constructor

/-- The program reduces to the region continued by the ten host operations, every buffer still at its launch contents. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [] [hostOps1] (by simp only [List.Forall])
    (by simp only [List.Forall]) main_chain

theorem entryAt_arg0 (c : Dev nD) : entryAt m c main_arg0 = m ((c : Thread nD τ).loc main_arg0) := rfl
theorem entryAt_arg1 (c : Dev nD) : entryAt m c main_arg1 = m ((c : Thread nD τ).loc main_arg1) := rfl
theorem entryAt_arg2 (c : Dev nD) : entryAt m c main_arg2 = m ((c : Thread nD τ).loc main_arg2) := rfl
theorem entryAt_arg3 (c : Dev nD) : entryAt m c main_arg3 = m ((c : Thread nD τ).loc main_arg3) := rfl

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's staging buffer holds the window's block at every point, whether the point fetches it or the index
    has not moved since the last fetch, as long as the body leaves the block in place. -/
theorem found_in0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's two branch conditions over the grid

The grid is 8 × 4, the second coordinate the contraction step `k`: point `t` has `k = t mod 4`. -/

/-- The accumulator is reset where `k = 0`. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (by decide +kernel : ∀ t : Fin grid0.N, isFirst (grid0.coords t) ↔ t.val % 4 = 0)

/-- The row tile's total is stored where `k = 3`. -/
abbrev isLast (i : grid0.Coords) : Prop := k0_cond2 i = 1#1
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last contraction step nothing is stored into the output window, -/
theorem idle3 : ∀ t : Fin cfg0.N, ¬isLast (grid0.coords t) → cfg0.idle 3 (grid0.coords t) = true := by decide +kernel
/-- and its block is not written back there. -/
theorem noFlush3 : ∀ t : Fin cfg0.N, ¬isLast (grid0.coords t) → (cfg0.win 3).flush t = false := by decide +kernel
theorem live3 : ∀ t : Fin cfg0.N, isLast (grid0.coords t) → cfg0.idle 3 (grid0.coords t) = false := by decide +kernel

/-! ## The memrefs the body is called with -/

/-- One staging buffer of the output window, through which its contents are stated. -/
abbrev outView : View sig .tc .vmem S1x8x128 .f32 := (Memref.whole cc0_stg3_0 : Memref sig .tc .vmem S1x8x128 .f32).view
abbrev mr0 (t : Fin cfg0.N) : Memref sig .tc .vmem S1024x2048 .f32 := win0_0.stage (cfg0.slots t 0)
abbrev wh0 (t : Fin cfg0.N) : (mr0 t).IsWhole := hstage0_0 ((cfg0.slots t 0).cast nbuf0_0)
abbrev mr1 (t : Fin cfg0.N) : Memref sig .tc .vmem S2048x64 .f32 := win0_1.stage (cfg0.slots t 1)
abbrev wh1 (t : Fin cfg0.N) : (mr1 t).IsWhole := hstage0_1 ((cfg0.slots t 1).cast nbuf0_1)
abbrev mr2 (t : Fin cfg0.N) : Memref sig .tc .vmem S1024x64 .f32 := win0_2.stage (cfg0.slots t 2)
abbrev wh2 (t : Fin cfg0.N) : (mr2 t).IsWhole := hstage0_2 ((cfg0.slots t 2).cast nbuf0_2)
abbrev mr3 (t : Fin cfg0.N) : Memref sig .tc .vmem S1x8x128 .f32 := win0_3.stage (cfg0.slots t 3)
abbrev wh3 (t : Fin cfg0.N) : (mr3 t).IsWhole := hstage0_3 ((cfg0.slots t 3).cast nbuf0_3)
/-- The accumulator: a scratch buffer of the kernel's own, carried from point to point. -/
abbrev accM : Memref sig .tc .vmem S1024x64 .f32 := Memref.whole cc0_scratch0
abbrev accView : View sig .tc .vmem S1024x64 .f32 := accM.view

/-- The scoped buffers no window stages are the accumulator alone, owned at some contents. -/
theorem scopedRest_acc (c : Dev nD) :
    (Pipeline.scopedRest spec0 c : sProp 𝕄) = iprop(∃ d, owns (c : Thread nD τ) accM fullShare d) := by
  rw [scopedRest0_eq]; simp only [accM, owns_whole]; try rfl

end Cert.KernelIdeal.Fr

end
-- ==== Proof.IRunA.lean ====
import proofs.«121765_j575525618299_2_alg».proof.Proof.IBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body where the contraction step is the first of its row tile (`k = 0`): on whole memrefs, the three input
    blocks at `x0 x1 x2`, the output block at any `xo` (handed back untouched), the accumulator at anything, the body
    runs and leaves the accumulator with the pieces `LS` written (first the zero fill, then zero plus the block
    product); the pieces are what the symbolic run finds. -/
noncomputable def runFirst (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i)
    (x0 : Vec F S1024x2048 .f32) (x1 : Vec F S2048x64 .f32) (x2 : Vec F S1024x64 .f32) :
    { LS : List (View.Piece (Elt F) S1024x64 .f32) //
      ∀ (xo : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ (∃ d, owns (c : Thread nD τ) a6 fullShare d)
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, fun xo E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%d6, %f6, -, H6⟩, Hk⟩
    obtain rfl := ha2.eq_unread hf0; obtain rfl := ha3.eq_unread hf1; obtain rfl := ha4.eq_unread hf2; obtain rfl := ha5.eq_unread hf3
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    iexists _; iexact H6

end Cert.KernelIdeal.Fr

end
-- ==== Proof.IRunB.lean ====
import proofs.«121765_j575525618299_2_alg».proof.Proof.IRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a middle contraction step (`k = 1, 2`): the accumulator, found at the contents `xs` the step before
    left, ends with the pieces `LS` written (its contents plus the block product); inputs and the output block are
    handed back untouched. -/
noncomputable def runMiddle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i)
    (x0 : Vec F S1024x2048 .f32) (x1 : Vec F S2048x64 .f32) (x2 : Vec F S1024x64 .f32) (xs : Vec F S1024x64 .f32) :
    { LS : List (View.Piece (Elt F) S1024x64 .f32) //
      ∀ (xo : Vec F S1x8x128 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare xo ∗ owns (c : Thread nD τ) a6 fullShare xs
            ∗ (iprop(owns (c : Thread nD τ) a2 fullShare x0 ∗ owns (c : Thread nD τ) a3 fullShare x1 ∗ owns (c : Thread nD τ) a4 fullShare x2 ∗ owns (c : Thread nD τ) a5 fullShare xo ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, fun xo E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, ⟨%f6, %hf6, H6⟩, Hk⟩
    obtain rfl := ha2.eq_unread hf0; obtain rfl := ha3.eq_unread hf1; obtain rfl := ha4.eq_unread hf2; obtain rfl := ha5.eq_unread hf3; obtain rfl := ha6.eq_unread hf6
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    iexists _; iexact H6

end Cert.KernelIdeal.Fr

end
-- ==== Proof.IRunC.lean ====
import proofs.«121765_j575525618299_2_alg».proof.Proof.IRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the last contraction step (`k = 3`): the accumulator, found at `xs`, ends with the pieces `LS`
    written, and the output block — found at anything — with the pieces `LO` (the row tile's total, broadcast);
    the inputs are handed back untouched. -/
noncomputable def runLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i)
    (x0 : Vec F S1024x2048 .f32) (x1 : Vec F S2048x64 .f32) (x2 : Vec F S1024x64 .f32) (xs : Vec F S1024x64 .f32) :
    Σ' (LO : List (View.Piece (Elt F) S1x8x128 .f32)), { LS : List (View.Piece (Elt F) S1024x64 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ (∃ d, owns (c : Thread nD τ) a5 fullShare d) ∗ owns (c : Thread nD τ) a6 fullShare xs
            ∗ (iprop(owns (c : Thread nD τ) a2 fullShare x0 ∗ owns (c : Thread nD τ) a3 fullShare x1 ∗ owns (c : Thread nD τ) a4 fullShare x2 ∗ (∃ f, a5.view.loc (c : Thread nD τ) ↦[a5.view.set]{fullShare} a5.view.writes (Elt F) f LO) ∗ (∃ f, a6.view.loc (c : Thread nD τ) ↦[a6.view.set]{fullShare} a6.view.writes (Elt F) f LS)) -∗ K ⟨⟩))
          ⊢ wp frame (wpE (defs₀ (F := F)) Variants.none c none) E (cc0__loss_kernel i a2 ha2 a3 ha3 a4 ha4 a5 ha5 a6 ha6) K } := by
  refine ⟨?_, ?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, ⟨%f6, %hf6, H6⟩, Hk⟩
    obtain rfl := ha2.eq_unread hf0; obtain rfl := ha3.eq_unread hf1; obtain rfl := ha4.eq_unread hf2; obtain rfl := ha6.eq_unread hf6
    sl_exec (disch := first | exact hf | exact hl)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]; · iexists _; iexact H3
    iexists _; iexact H6

end Cert.KernelIdeal.Fr

end
-- ==== Proof.IState.lean ====
import proofs.«121765_j575525618299_2_alg».proof.Proof.IRunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of step leaves in the accumulator and in the output block -/

theorem acc_cover_first (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i) (x0 : Vec F S1024x2048 .f32) (x1 : Vec F S2048x64 .f32) (x2 : Vec F S1024x64 .f32) (y : S1024x64.Idx) :
    ∃ pc ∈ (runFirst c i a2 ha2 a3 ha3 a4 ha4 a5 ha5 a6 ha6 hf hl x0 x1 x2).1, y ∈ pc.1.set :=
  View.cover_of_tiledL (runFirst c i a2 ha2 a3 ha3 a4 ha4 a5 ha5 a6 ha6 hf hl x0 x1 x2).1 S1024x64.size (by sl_kernel_rfl) y

/-- The accumulator after a first step: the run's pieces read back. -/
def accFirst (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i) (x0 : Vec F S1024x2048 .f32) (x1 : Vec F S2048x64 .f32) (x2 : Vec F S1024x64 .f32) : Vec F S1024x64 .f32 :=
  accView.read (Elt F) (accView.writes (Elt F) accView.junk (runFirst c i a2 ha2 a3 ha3 a4 ha4 a5 ha5 a6 ha6 hf hl x0 x1 x2).1)

theorem acc_cover_middle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i) (x0 : Vec F S1024x2048 .f32) (x1 : Vec F S2048x64 .f32) (x2 : Vec F S1024x64 .f32) (xs : Vec F S1024x64 .f32) (y : S1024x64.Idx) :
    ∃ pc ∈ (runMiddle c i a2 ha2 a3 ha3 a4 ha4 a5 ha5 a6 ha6 hf hl x0 x1 x2 xs).1, y ∈ pc.1.set :=
  View.cover_of_tiledL (runMiddle c i a2 ha2 a3 ha3 a4 ha4 a5 ha5 a6 ha6 hf hl x0 x1 x2 xs).1 S1024x64.size (by sl_kernel_rfl) y

/-- The accumulator after a middle step. -/
def accMiddle (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i) (x0 : Vec F S1024x2048 .f32) (x1 : Vec F S2048x64 .f32) (x2 : Vec F S1024x64 .f32) (xs : Vec F S1024x64 .f32) : Vec F S1024x64 .f32 :=
  accView.read (Elt F) (accView.writes (Elt F) accView.junk (runMiddle c i a2 ha2 a3 ha3 a4 ha4 a5 ha5 a6 ha6 hf hl x0 x1 x2 xs).1)

theorem acc_cover_last (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) (y : S1024x64.Idx) :
    ∃ pc ∈ (runLast c i a2 ha2 a3 ha3 a4 ha4 a5 ha5 a6 ha6 hf hl x0 x1 x2 xs).2.1, y ∈ pc.1.set :=
  View.cover_of_tiledL (runLast c i a2 ha2 a3 ha3 a4 ha4 a5 ha5 a6 ha6 hf hl x0 x1 x2 xs).2.1 S1024x64.size (by sl_kernel_rfl) y

/-- The accumulator after a last step. -/
def accLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) : Vec F S1024x64 .f32 :=
  accView.read (Elt F) (accView.writes (Elt F) accView.junk (runLast c i a2 ha2 a3 ha3 a4 ha4 a5 ha5 a6 ha6 hf hl x0 x1 x2 xs).2.1)

theorem out_cover_last (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) (y : S1x8x128.Idx) :
    ∃ pc ∈ (runLast c i a2 ha2 a3 ha3 a4 ha4 a5 ha5 a6 ha6 hf hl x0 x1 x2 xs).1, y ∈ pc.1.set :=
  View.cover_of_tiledL (runLast c i a2 ha2 a3 ha3 a4 ha4 a5 ha5 a6 ha6 hf hl x0 x1 x2 xs).1 S1x8x128.size (by sl_kernel_rfl) y

/-- The output block after a last step. -/
def outLast (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) : Vec F S1x8x128 .f32 :=
  outView.read (Elt F) (outView.writes (Elt F) outView.junk (runLast c i a2 ha2 a3 ha3 a4 ha4 a5 ha5 a6 ha6 hf hl x0 x1 x2 xs).1)

/-- A placeholder for the output block where nothing is stored into it: consulted nowhere (the window is idle and
    not written back at those points). -/
def outIdle : Vec F S1x8x128 .f32 := outView.read (Elt F) outView.junk

/-! ## The state after each grid point, by recursion on the point -/

/-- The output block and the accumulator after the body at point `n`: a first step starts from nothing, a middle or
    last step from the accumulator the point before left. -/
def stateAt (c : Dev nD) : (n : ℕ) → n < cfg0.N → Vec F S1x8x128 .f32 × Vec F S1024x64 .f32
  | 0, hn => (outIdle, accFirst c (grid0.coords ⟨0, hn⟩) (mr0 ⟨0, hn⟩) (wh0 ⟨0, hn⟩) (mr1 ⟨0, hn⟩) (wh1 ⟨0, hn⟩) (mr2 ⟨0, hn⟩) (wh2 ⟨0, hn⟩) (mr3 ⟨0, hn⟩) (wh3 ⟨0, hn⟩) accM (Memref.isWhole_whole _) ((isFirst_iff ⟨0, hn⟩).mpr (Nat.zero_mod _)) (fun h => (fun h => by (try dsimp only at h); omega) ((isLast_iff ⟨0, hn⟩).mp h)) (blockAt m c 0 ⟨0, hn⟩) (blockAt m c 1 ⟨0, hn⟩) (blockAt m c 2 ⟨0, hn⟩))
  | n + 1, hn =>
    if h0 : (n + 1) % 4 = 0 then
      (outIdle, accFirst c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) ((isFirst_iff ⟨n + 1, hn⟩).mpr h0) (fun h => (fun h => by (try dsimp only at h); omega) ((isLast_iff ⟨n + 1, hn⟩).mp h)) (blockAt m c 0 ⟨n + 1, hn⟩) (blockAt m c 1 ⟨n + 1, hn⟩) (blockAt m c 2 ⟨n + 1, hn⟩))
    else if h3 : (n + 1) % 4 = 3 then
      (outLast c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) ((isLast_iff ⟨n + 1, hn⟩).mpr h3) (blockAt m c 0 ⟨n + 1, hn⟩) (blockAt m c 1 ⟨n + 1, hn⟩) (blockAt m c 2 ⟨n + 1, hn⟩) (stateAt c n (Nat.lt_of_succ_lt hn)).2,
       accLast c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) ((isLast_iff ⟨n + 1, hn⟩).mpr h3) (blockAt m c 0 ⟨n + 1, hn⟩) (blockAt m c 1 ⟨n + 1, hn⟩) (blockAt m c 2 ⟨n + 1, hn⟩) (stateAt c n (Nat.lt_of_succ_lt hn)).2)
    else
      (outIdle, accMiddle c (grid0.coords ⟨n + 1, hn⟩) (mr0 ⟨n + 1, hn⟩) (wh0 ⟨n + 1, hn⟩) (mr1 ⟨n + 1, hn⟩) (wh1 ⟨n + 1, hn⟩) (mr2 ⟨n + 1, hn⟩) (wh2 ⟨n + 1, hn⟩) (mr3 ⟨n + 1, hn⟩) (wh3 ⟨n + 1, hn⟩) accM (Memref.isWhole_whole _) (fun h => h0 ((isFirst_iff ⟨n + 1, hn⟩).mp h)) (fun h => h3 ((isLast_iff ⟨n + 1, hn⟩).mp h)) (blockAt m c 0 ⟨n + 1, hn⟩) (blockAt m c 1 ⟨n + 1, hn⟩) (blockAt m c 2 ⟨n + 1, hn⟩) (stateAt c n (Nat.lt_of_succ_lt hn)).2)

theorem stateAt_first (c : Dev nD) (t : Fin cfg0.N) (h0 : t.val % 4 = 0) (h3 : ¬t.val % 4 = 3) :
    stateAt m c t.val t.isLt = (outIdle, accFirst c (grid0.coords t) (mr0 t) (wh0 t) (mr1 t) (wh1 t) (mr2 t) (wh2 t) (mr3 t) (wh3 t) accM (Memref.isWhole_whole _) ((isFirst_iff t).mpr h0) (fun h => h3 ((isLast_iff t).mp h)) (blockAt m c 0 t) (blockAt m c 1 t) (blockAt m c 2 t)) := by
  obtain ⟨n, hn⟩ := t
  cases n with
  | zero => exact rfl
  | succ n => exact (dif_pos h0).trans rfl

theorem stateAt_middle (c : Dev nD) (t : Fin cfg0.N) (h0 : ¬t.val % 4 = 0) (h3 : ¬t.val % 4 = 3) :
    stateAt m c t.val t.isLt = (outIdle, accMiddle c (grid0.coords t) (mr0 t) (wh0 t) (mr1 t) (wh1 t) (mr2 t) (wh2 t) (mr3 t) (wh3 t) accM (Memref.isWhole_whole _) (fun h => h0 ((isFirst_iff t).mp h)) (fun h => h3 ((isLast_iff t).mp h)) (blockAt m c 0 t) (blockAt m c 1 t) (blockAt m c 2 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h3).trans rfl)

theorem stateAt_last (c : Dev nD) (t : Fin cfg0.N) (h0 : ¬t.val % 4 = 0) (h3 : t.val % 4 = 3) :
    stateAt m c t.val t.isLt = (outLast c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2,
      accLast c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h3).trans rfl)

/-! ## The invariant between points: the accumulator at what the point before left -/

def accInv (c : Dev nD) : (n : ℕ) → n ≤ cfg0.N → sProp 𝕄
  | 0, _ => Pipeline.scopedRest spec0 c
  | n + 1, hn => owns (c : Thread nD τ) accM fullShare ((stateAt m c n hn).2)

theorem accInv_zero (c : Dev nD) (n : ℕ) (h : n ≤ cfg0.N) (hz : n = 0) : accInv m c n h = Pipeline.scopedRest spec0 c := by
  subst hz; rfl

theorem accInv_succ (c : Dev nD) (n : ℕ) (hn : n < cfg0.N) :
    accInv m c (n + 1) hn = owns (c : Thread nD τ) accM fullShare ((stateAt m c n hn).2) := rfl

theorem accInv_pos (c : Dev nD) (n : ℕ) (h : n ≤ cfg0.N) (hz : n ≠ 0) :
    accInv m c n h = owns (c : Thread nD τ) accM fullShare ((stateAt m c (n - 1) (by omega)).2) := by
  cases n with
  | zero => exact absurd rfl hz
  | succ n => rfl

/-! ## The pipeline's proof data -/

/-- Per core: the arrays as the region finds them; after the body each input buffer still at its block and the output
    buffer at `stateAt`'s first component; the invariant `accInv`; nothing owed. Windows 1 and 2 read the same array:
    each holds half of it. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => (stateAt m c t.val t.isLt).1
  Φ t := accInv m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = entryAt m c (Pipeline.arrRef spec0 w) := by
  dsimp only [dats]

theorem inv_castSucc (c : Dev nD) (t : Fin cfg0.N) :
    (dats m 0 c).Φ t.castSucc = accInv m c t.val (Nat.le_of_lt t.isLt) := by
  dsimp only [dats]; simp only [Fin.coe_castSucc]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = (stateAt m c t.val t.isLt).1 := by dsimp only [dats]

theorem found_0 (c : Dev nD) (t : Fin cfg0.N) (d) : (dats m 0 c).before 0 t d = blockAt m c 0 t :=
  found_in0 m (dats m 0 c) (A_eq m c 0) (after_0 m c) t d
theorem found_1 (c : Dev nD) (t : Fin cfg0.N) (d) : (dats m 0 c).before 1 t d = blockAt m c 1 t :=
  found_in1 m (dats m 0 c) (A_eq m c 1) (after_1 m c) t d
theorem found_2 (c : Dev nD) (t : Fin cfg0.N) (d) : (dats m 0 c).before 2 t d = blockAt m c 2 t :=
  found_in2 m (dats m 0 c) (A_eq m c 2) (after_2 m c) t d

end Cert.KernelIdeal.Fr

end
-- ==== Proof.IBody.lean ====
import proofs.«121765_j575525618299_2_alg».proof.Proof.IState

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation at a generic point -/

/-- What the body is called with at point `t`: the invariant, nothing owed, each window's current buffer as found. -/
def bodyPre (c : Dev nD) (t : Fin cfg0.N) : sProp 𝕄 :=
  iprop((dats m 0 c).Φ t.castSucc ∗ (dats m 0 c).owesAt () t.castSucc
    ∗ (∃ d, owns (c : Thread nD τ) (mr0 t) fullShare ((dats m 0 c).before 0 t d))
    ∗ (∃ d, owns (c : Thread nD τ) (mr1 t) fullShare ((dats m 0 c).before 1 t d))
    ∗ (∃ d, owns (c : Thread nD τ) (mr2 t) fullShare ((dats m 0 c).before 2 t d))
    ∗ (∃ d, owns (c : Thread nD τ) (mr3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_in0 (c : Dev nD) (t : Fin cfg0.N) :
    (dats m 0 c).leavesExact 0 t = owns (c : Thread nD τ) (mr0 t) fullShare (blockAt m c 0 t) := by
  rw [show (dats m 0 c).leavesExact 0 t = owns (c : Thread nD τ) (mr0 t) fullShare ((dats m 0 c).after 0 t) from by
    unfold Dat.leavesExact; rw [live0 t], after_0]
theorem leaves_in1 (c : Dev nD) (t : Fin cfg0.N) :
    (dats m 0 c).leavesExact 1 t = owns (c : Thread nD τ) (mr1 t) fullShare (blockAt m c 1 t) := by
  rw [show (dats m 0 c).leavesExact 1 t = owns (c : Thread nD τ) (mr1 t) fullShare ((dats m 0 c).after 1 t) from by
    unfold Dat.leavesExact; rw [live1 t], after_1]
theorem leaves_in2 (c : Dev nD) (t : Fin cfg0.N) :
    (dats m 0 c).leavesExact 2 t = owns (c : Thread nD τ) (mr2 t) fullShare (blockAt m c 2 t) := by
  rw [show (dats m 0 c).leavesExact 2 t = owns (c : Thread nD τ) (mr2 t) fullShare ((dats m 0 c).after 2 t) from by
    unfold Dat.leavesExact; rw [live2 t], after_2]

set_option maxHeartbeats 4800000 in
/-- The body at any point: the inputs' buffers hold their blocks; the point's place in its row tile (`t mod 4`) says
    which of the three runs applies; the invariant hands the accumulator over at what the point before left (at
    anything before a first step) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1, found_2]
  rw [show (dats m 0 c).owesAt () t.succ = (dats m 0 c).owesAt () t.castSucc from rfl]
  rw [show (dats m 0 c).Φ t.succ = accInv m c (t.val + 1) t.isLt from rfl, accInv_succ]
  rw [leaves_in0, leaves_in1, leaves_in2]
  have hN : t.val < 32 := lt_of_lt_of_eq t.isLt (show cfg0.N = 32 from N_0)
  by_cases h0 : t.val % 4 = 0
  · have h3 : ¬t.val % 4 = 3 := by omega
    rw [Dat.leavesExact_idle (dats m 0 c) 3 t (idle3 t (fun h => h3 ((isLast_iff t).mp h))) (noFlush3 t (fun h => h3 ((isLast_iff t).mp h)))]
    rw [stateAt_first m c t h0 h3]
    unfold accFirst; (try dsimp only)
    by_cases hz : t.val = 0
    · rw [inv_castSucc m c t, accInv_zero m c _ _ hz, scopedRest_acc]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h3 ((isLast_iff t).mp h)) (blockAt m c 0 t) (blockAt m c 1 t) (blockAt m c 2 t)).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (acc_cover_first c _ _ _ _ _ _ _ _ _ _ _ _ _ _ _ _ )
      isplitl [Ho]; · iexact Ho
      isplitl [H0]; · iexact H0
      isplitl [H1]; · iexact H1
      isplitl [H2]; · iexact H2
      iexists _; iexact H3
    · rw [inv_castSucc m c t, accInv_pos m c _ _ hz]
      iintro ⟨HS, Ho, ⟨%d0, H0⟩, ⟨%d1, H1⟩, ⟨%d2, H2⟩, ⟨%d3, H3⟩⟩
      iapply ((runFirst c (grid0.coords t) _ _ _ _ _ _ _ _ _ _ ((isFirst_iff t).mpr h0) (fun h => h3 ((isLast_iff t).mp h)) (blockAt m c 0 t) (blockAt m c 1 t) (blockAt m c 2 t)).2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS]
      · unfold owns; iexists _; isplitr
        swap; · iexact HS
        ipureintro; exact View.read_writes_of_cover _ _ _ _ _ (acc_cover_first c _ _ _ _ _ _ _ _ _ _ _ _ _ _ _ _ )
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dats m 0 c).leavesExact 3 t = owns (c : Thread nD τ) (mr3 t) fullShare ((dats m 0 c).after 3 t) from by
        unfold Dat.leavesExact; rw [live3 t ((isLast_iff t).mpr h3)], after_3]
      rw [stateAt_last m c t h0 h3]
      unfold outLast accLast; (try dsimp only)
      rw [inv_castSucc m c t, accInv_pos m c _ _ hz]
      iintro ⟨HS, Ho, ⟨%d0, H0⟩, ⟨%d1, H1⟩, ⟨%d2, H2⟩, ⟨%d3, H3⟩⟩
      iapply ((runLast c (grid0.coords t) _ _ _ _ _ _ _ _ _ _ (fun h => h0 ((isFirst_iff t).mp h)) ((isLast_iff t).mpr h3) (blockAt m c 0 t) (blockAt m c 1 t) (blockAt m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%eo, H3⟩, ⟨%es, HS⟩⟩
      isplitl [HS]
      · unfold owns; iexists _; isplitr
        swap; · iexact HS
        ipureintro; exact View.read_writes_of_cover _ _ _ _ _ (acc_cover_last c _ _ _ _ _ _ _ _ _ _ _ _ _ _ _ _ _ )
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (out_cover_last c _ _ _ _ _ _ _ _ _ _ _ _ _ _ _ _ _ )
    · rw [Dat.leavesExact_idle (dats m 0 c) 3 t (idle3 t (fun h => h3 ((isLast_iff t).mp h))) (noFlush3 t (fun h => h3 ((isLast_iff t).mp h)))]
      rw [stateAt_middle m c t h0 h3]
      unfold accMiddle; (try dsimp only)
      rw [inv_castSucc m c t, accInv_pos m c _ _ hz]
      iintro ⟨HS, Ho, ⟨%d0, H0⟩, ⟨%d1, H1⟩, ⟨%d2, H2⟩, ⟨%d3, H3⟩⟩
      iapply ((runMiddle c (grid0.coords t) _ _ _ _ _ _ _ _ _ _ (fun h => h0 ((isFirst_iff t).mp h)) (fun h => h3 ((isLast_iff t).mp h)) (blockAt m c 0 t) (blockAt m c 1 t) (blockAt m c 2 t) _).2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS]
      · unfold owns; iexists _; isplitr
        swap; · iexact HS
        ipureintro; exact View.read_writes_of_cover _ _ _ _ _ (acc_cover_middle c _ _ _ _ _ _ _ _ _ _ _ _ _ _ _ _ _ )
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.ISharedArr.lean ====
import proofs.«121765_j575525618299_2_alg».proof.Proof.Gen.KernelIdeal.Launch
import Idealize.ShloMosaic.Lib.Pipeline.Launch
import Idealize.ShloMosaic.Lib.Pipeline.FrameSuffix
import Idealize.ShloMosaic.Lib.Pipeline.Frame
import Idealize.ShloMosaic.Lib.Pipeline.Kit

/-!
# Two windows on one array

The pipeline has four windows: window 0 on the array `main_arg2`, windows 1 and 2 BOTH on `main_arg0`, window 3
(the output) on `main_v0`. So the three distinct arrays, each held whole at the full share, are the four windows'
holdings once the points-to of `main_arg0` is cut along the share into its left half (window 1) and its right
half (window 2); and back. The host operations after the region write none of the three arrays, so they run
from the region's exit within the unscoped buffers and leave the arrays as they were.
-/

noncomputable section

namespace Cert.KernelIdeal.Fr

open Cert.KernelIdeal Cert.KernelIdeal.Gen
open Idealize.ShloMosaic Idealize.ShloMosaic.TcCoe
open Idealize.SL Idealize.SL.RA
open Idealize.SL.BI (sProp bigSep bigSepL bigSep_eq_bigSepL_of_eq bigSep_congr)
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The windows' arrays are three distinct buffers. -/
theorem image_arrRef :
    Finset.univ.image (Pipeline.arrRef spec0) = [main_arg2, main_arg0, main_v0].toFinset := by decide

/-- The buffers behind the windows' arrays, one by one. -/
theorem arrBufs_eq (c : Dev nD) (V : (b : Ref sig .tc) → Buf (Elt F) ((c.tc : Thread nD τ).loc b)) :
    (Pipeline.arrBufs spec0 c V : sProp 𝕄)
      = iprop((((c.tc : Thread nD τ).loc main_arg2) ↦{fullShare} V main_arg2)
          ∗ (((c.tc : Thread nD τ).loc main_arg0) ↦{fullShare} V main_arg0)
          ∗ (((c.tc : Thread nD τ).loc main_v0) ↦{fullShare} V main_v0)) := by
  unfold Pipeline.arrBufs
  exact bigSep_eq_bigSepL_of_eq [main_arg2, main_arg0, main_v0] image_arrRef (by decide) _

section
variable (c : Dev nD) (dat : Pipeline.Dat τ (Elt F) Unit ℕ (UR sig nD τ) ℕ cfg0 c)
  (hq0 : dat.q 0 = fullShare) (hq1 : dat.q 1 = fullShare.left) (hq2 : dat.q 2 = fullShare.right)

include hq0 hq1 hq2 in
/-- The four windows' holdings, one by one: the whole of `main_arg2`, the left and the right half of `main_arg0`,
    the whole of `main_v0`. -/
theorem arrays_eq (A : (w : Fin cfg0.W) → Buf (Elt F) ((cfg0.win w).arr.view.loc (c.tc : Thread nD τ))) :
    (dat.arrays A : sProp 𝕄)
      = iprop((((c.tc : Thread nD τ).loc main_arg2) ↦{fullShare} A 0)
          ∗ (((c.tc : Thread nD τ).loc main_arg0) ↦{fullShare.left} A 1)
          ∗ (((c.tc : Thread nD τ).loc main_arg0) ↦{fullShare.right} A 2)
          ∗ (((c.tc : Thread nD τ).loc main_v0) ↦{fullShare} A 3)) := by
  have s0 : dat.share 0 = fullShare := by unfold Pipeline.Dat.share; rw [if_neg (by decide), hq0]
  have s1 : dat.share 1 = fullShare.left := by unfold Pipeline.Dat.share; rw [if_neg (by decide), hq1]
  have s2 : dat.share 2 = fullShare.right := by unfold Pipeline.Dat.share; rw [if_neg (by decide), hq2]
  have s3 : dat.share 3 = fullShare := by unfold Pipeline.Dat.share; rw [if_pos (by decide)]
  unfold Pipeline.Dat.arrays
  rw [Gen.bigSep_W0, (Gen.arr_whole0 0).set_eq_univ, (Gen.arr_whole0 1).set_eq_univ,
    (Gen.arr_whole0 3).set_eq_univ, s0, s1, s2, s3]

include hq0 hq1 hq2 in
/-- The three arrays held whole make the four windows' holdings: `main_arg0` is cut along the share. -/
theorem arrays_of_bufs (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (Pipeline.arrBufs spec0 c V : sProp 𝕄) ⊢ dat.arrays A := by
  have e0 : A 0 = V main_arg2 := hA 0
  have e1 : A 1 = V main_arg0 := hA 1
  have e2 : A 2 = V main_arg0 := hA 2
  have e3 : A 3 = V main_v0 := hA 3
  rw [arrBufs_eq, arrays_eq c dat hq0 hq1 hq2 A, e0, e1, e2, e3]
  iintro ⟨H2, H0, Hv⟩
  ihave H0 := (pointsTo_share (PosShare.mem_left_op_right fullShare)).1 $$ H0
  icases H0 with ⟨H0l, H0r⟩
  isplitl [H2]
  · iexact H2
  isplitl [H0l]
  · iexact H0l
  isplitl [H0r]
  · iexact H0r
  iexact Hv

include hq0 hq1 hq2 in
/-- The four windows' holdings make the three arrays held whole: the two halves of `main_arg0` are joined. -/
theorem bufs_of_arrays (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    dat.arrays A ⊢ (Pipeline.arrBufs spec0 c V : sProp 𝕄) := by
  have e0 : A 0 = V main_arg2 := hA 0
  have e1 : A 1 = V main_arg0 := hA 1
  have e2 : A 2 = V main_arg0 := hA 2
  have e3 : A 3 = V main_v0 := hA 3
  rw [arrBufs_eq, arrays_eq c dat hq0 hq1 hq2 A, e0, e1, e2, e3]
  iintro ⟨H2, H0l, H0r, Hv⟩
  isplitl [H2]
  · iexact H2
  isplitl [H0l H0r]
  · iapply (pointsTo_share (PosShare.mem_left_op_right fullShare)).2
    isplitl [H0l]
    · iexact H0l
    iexact H0r
  iexact Hv

end

/-! ## The host operations after the region -/

/-- The contents at the region's exit: the output array `main_v0` at `o`, every other buffer as it was. -/
def exitVal (V : Valuation τ sig (Elt F)) (o : (Proc.devRef (τ := τ) .tc main_v0).ty.Contents (Elt F)) :
    Valuation τ sig (Elt F) := fun b =>
  if h : Proc.devRef .tc main_v0 = b then cast (congrArg (fun b' : DevRef τ sig => b'.ty.Contents (Elt F)) h) o else V b

/-- At the output array the exit contents are `o`. -/
theorem exitVal_out (V : Valuation τ sig (Elt F)) (o : (Proc.devRef (τ := τ) .tc main_v0).ty.Contents (Elt F)) :
    exitVal V o (Proc.devRef .tc main_v0) = o := by
  unfold exitVal
  rw [dif_pos rfl]
  rfl

/-- At every other buffer the exit contents are the old ones. -/
theorem exitVal_of_ne (V : Valuation τ sig (Elt F)) (o : (Proc.devRef (τ := τ) .tc main_v0).ty.Contents (Elt F))
    (b : Ref sig .tc) (hb : b ≠ main_v0) : exitVal V o (Proc.devRef .tc b) = V (Proc.devRef .tc b) := by
  unfold exitVal
  rw [dif_neg fun e => hb (Proc.devRef_injective _ e).symm]

section ExitAt
variable (V : Valuation τ sig (Elt F)) (o : (Proc.devRef (τ := τ) .tc main_v0).ty.Contents (Elt F))

theorem exitVal_main_arg0 : exitVal V o (Proc.devRef .tc main_arg0) = V (Proc.devRef .tc main_arg0) := exitVal_of_ne V o _ (by decide)
theorem exitVal_main_arg1 : exitVal V o (Proc.devRef .tc main_arg1) = V (Proc.devRef .tc main_arg1) := exitVal_of_ne V o _ (by decide)
theorem exitVal_main_arg2 : exitVal V o (Proc.devRef .tc main_arg2) = V (Proc.devRef .tc main_arg2) := exitVal_of_ne V o _ (by decide)
theorem exitVal_main_arg3 : exitVal V o (Proc.devRef .tc main_arg3) = V (Proc.devRef .tc main_arg3) := exitVal_of_ne V o _ (by decide)
theorem exitVal_main_v1 : exitVal V o (Proc.devRef .tc main_v1) = V (Proc.devRef .tc main_v1) := exitVal_of_ne V o _ (by decide)
theorem exitVal_main_v2 : exitVal V o (Proc.devRef .tc main_v2) = V (Proc.devRef .tc main_v2) := exitVal_of_ne V o _ (by decide)
theorem exitVal_main_cst : exitVal V o (Proc.devRef .tc main_cst) = V (Proc.devRef .tc main_cst) := exitVal_of_ne V o _ (by decide)
theorem exitVal_main_v3 : exitVal V o (Proc.devRef .tc main_v3) = V (Proc.devRef .tc main_v3) := exitVal_of_ne V o _ (by decide)
theorem exitVal_main_v4 : exitVal V o (Proc.devRef .tc main_v4) = V (Proc.devRef .tc main_v4) := exitVal_of_ne V o _ (by decide)
theorem exitVal_main_v5 : exitVal V o (Proc.devRef .tc main_v5) = V (Proc.devRef .tc main_v5) := exitVal_of_ne V o _ (by decide)
theorem exitVal_main_cst_0 : exitVal V o (Proc.devRef .tc main_cst_0) = V (Proc.devRef .tc main_cst_0) := exitVal_of_ne V o _ (by decide)
theorem exitVal_main_v6 : exitVal V o (Proc.devRef .tc main_v6) = V (Proc.devRef .tc main_v6) := exitVal_of_ne V o _ (by decide)
theorem exitVal_main_v7 : exitVal V o (Proc.devRef .tc main_v7) = V (Proc.devRef .tc main_v7) := exitVal_of_ne V o _ (by decide)
theorem exitVal_main_v8 : exitVal V o (Proc.devRef .tc main_v8) = V (Proc.devRef .tc main_v8) := exitVal_of_ne V o _ (by decide)

end ExitAt

/-- The host operations after the region make no buffer of their own. -/
theorem hostOps1_fresh : (hostOps1 : List (HloOp τ sig (Elt F))).Forall fun op => op.fresh = ∅ := by
  simp only [List.Forall]; repeat' constructor

/-- No host operation after the region writes `main_arg2`. -/
theorem after_main_arg2 (X : Valuation τ sig (Elt F)) :
    StableHlo.after hostOps1 X (Proc.devRef .tc main_arg2) = X (Proc.devRef .tc main_arg2) :=
  StableHlo.after_of_forall_not_mem (b := Proc.devRef .tc main_arg2) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No host operation after the region writes `main_arg0`. -/
theorem after_main_arg0 (X : Valuation τ sig (Elt F)) :
    StableHlo.after hostOps1 X (Proc.devRef .tc main_arg0) = X (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- No host operation after the region writes `main_v0`. -/
theorem after_main_v0 (X : Valuation τ sig (Elt F)) :
    StableHlo.after hostOps1 X (Proc.devRef .tc main_v0) = X (Proc.devRef .tc main_v0) :=
  StableHlo.after_of_forall_not_mem (b := Proc.devRef .tc main_v0) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

section Tail
variable (c : Dev nD) (dat : Pipeline.Dat τ (Elt F) Unit ℕ (UR sig nD τ) ℕ cfg0 c)
  (hq0 : dat.q 0 = fullShare) (hq1 : dat.q 1 = fullShare.left) (hq2 : dat.q 2 = fullShare.right)

include hq0 hq1 hq2 in
/-- The four windows' holdings ARE the three arrays held whole, at contents that agree. -/
theorem arrays_eq_bufs (V : (b : Ref sig .tc) → Buf (Elt F) ((c.tc : Thread nD τ).loc b))
    (A : (w : Fin cfg0.W) → Buf (Elt F) ((cfg0.win w).arr.view.loc (c.tc : Thread nD τ)))
    (hA : ∀ w, A w = V (Pipeline.arrRef spec0 w)) :
    (dat.arrays A : sProp 𝕄) = Pipeline.arrBufs spec0 c V :=
  BI.Entails.antisymm (bufs_of_arrays c dat hq0 hq1 hq2 V A hA) (arrays_of_bufs c dat hq0 hq1 hq2 V A hA)

/-- The unscoped buffers held at a valuation are the three arrays and the rest. -/
theorem held_split (X : Valuation τ sig (Elt F)) :
    (StableHlo.held (c.tc : Thread nD τ) (Pipeline.ucRefs τ sig) X : sProp 𝕄)
      = iprop((Pipeline.arrBufs spec0 c (fun b => X (Proc.devRef .tc b)) : sProp 𝕄)
          ∗ Pipeline.unscopedRest spec0 c (fun b => X (Proc.devRef .tc b))) := by
  rw [← Pipeline.unscopedBufs_held (Ix := Unit) (Name := ℕ) (U := UR sig nD τ) (Lvl := ℕ) c X]
  exact Pipeline.unscopedBufs_split₀ cfgs (0 : Fin 1) Gen.winFacts₀0.arr_unscoped c _

include hq0 hq1 hq2 in
set_option backward.isDefEq.respectTransparency.types false in
/-- THE HOST OPERATIONS AFTER THE REGION, run from the region's exit: holding the boundary, the four windows'
    holdings at `A` and the other unscoped buffers at `V`, the ten operations run and hand back the windows'
    holdings at `A` and the other buffers at their contents after the operations, computed from the exit contents. -/
theorem tail_run (V : Valuation τ sig (Elt F))
    (A : (w : Fin cfg0.W) → Buf (Elt F) ((cfg0.win w).arr.view.loc (c.tc : Thread nD τ)))
    (hA0 : A 0 = V (Proc.devRef .tc main_arg2)) (hA1 : A 1 = V (Proc.devRef .tc main_arg0))
    (hA2 : A 2 = V (Proc.devRef .tc main_arg0)) (Q' : PUnit → sProp 𝕄) :
    iprop((iprop(dat.arrays A ∗ Pipeline.unscopedRest spec0 c
              (fun b => StableHlo.after hostOps1 (exitVal V (A 3)) (Proc.devRef .tc b))) -∗ Q' ⟨⟩)
        ∗ boundary (c.tc : Thread nD τ) ∗ dat.arrays A ∗ Pipeline.unscopedRest spec0 c (fun b => V (Proc.devRef .tc b)))
      ⊢ wp frame (wpE (Pipeline.defs (pcfgs (F := F)) defs₀) (Variants.lift Variants.none) (c.tc : Thread nD τ) none) Set.univ
          (Pipeline.chain [StableHlo.seq hostOps1]) Q' := by
  classical
  -- the windows' contents are the exit contents at their arrays
  have hAW : ∀ w, A w = (fun b : Ref sig .tc => exitVal V (A 3) (Proc.devRef .tc b)) (Pipeline.arrRef spec0 w) := fun
    | 0 => hA0.trans (exitVal_main_arg2 V (A 3)).symm
    | 1 => hA1.trans (exitVal_main_arg0 V (A 3)).symm
    | 2 => hA2.trans (exitVal_main_arg0 V (A 3)).symm
    | 3 => (exitVal_out V (A 3)).symm
    | ⟨_ + 4, h⟩ => absurd h (Nat.not_lt.2 (Nat.le_add_left _ _))
  -- and still are after the operations, which write none of the arrays
  have hAW' : ∀ w, A w = (fun b : Ref sig .tc => StableHlo.after hostOps1 (exitVal V (A 3)) (Proc.devRef .tc b))
      (Pipeline.arrRef spec0 w) := fun
    | 0 => (hAW 0).trans (after_main_arg2 _).symm
    | 1 => (hAW 1).trans (after_main_arg0 _).symm
    | 2 => (hAW 2).trans (after_main_arg0 _).symm
    | 3 => (hAW 3).trans (after_main_v0 _).symm
    | ⟨_ + 4, h⟩ => absurd h (Nat.not_lt.2 (Nat.le_add_left _ _))
  -- off the arrays the exit contents are the old ones
  have hrest : (Pipeline.unscopedRest spec0 c (fun b => V (Proc.devRef .tc b)) : sProp 𝕄)
      = Pipeline.unscopedRest spec0 c (fun b => exitVal V (A 3) (Proc.devRef .tc b)) := by
    unfold Pipeline.unscopedRest
    exact bigSep_congr fun b hb => by
      beta_reduce
      rw [exitVal_of_ne V (A 3) b fun e => (Finset.mem_sdiff.mp hb).2
        (e ▸ Finset.mem_image.mpr ⟨(3 : Fin 4), Finset.mem_univ _, rfl⟩)]
  have hW : (StableHlo.held (c.tc : Thread nD τ) (Pipeline.ucRefs τ sig) (exitVal V (A 3)) : sProp 𝕄)
      = iprop(dat.arrays A ∗ Pipeline.unscopedRest spec0 c (fun b => V (Proc.devRef .tc b))) := by
    rw [held_split, hrest, arrays_eq_bufs c dat hq0 hq1 hq2 (fun b => exitVal V (A 3) (Proc.devRef .tc b)) A hAW]
  have hW' : (StableHlo.held (c.tc : Thread nD τ) (Pipeline.ucRefs τ sig)
        (StableHlo.after ([hostOps1] : List (List (HloOp τ sig (Elt F)))).flatten (exitVal V (A 3))) : sProp 𝕄)
      = iprop(dat.arrays A ∗ Pipeline.unscopedRest spec0 c
          (fun b => StableHlo.after hostOps1 (exitVal V (A 3)) (Proc.devRef .tc b))) := by
    rw [show ([hostOps1] : List (List (HloOp τ sig (Elt F)))).flatten = hostOps1 from List.append_nil _,
      held_split, arrays_eq_bufs c dat hq0 hq1 hq2
        (fun b => StableHlo.after hostOps1 (exitVal V (A 3)) (Proc.devRef .tc b)) A hAW']
  have hsub : ∀ ops ∈ ([hostOps1] : List (List (HloOp τ sig (Elt F)))), ∀ op ∈ ops, op.bufs ⊆ Pipeline.ucRefs τ sig := by
    intro ops hops op hop
    obtain rfl : ops = hostOps1 := List.mem_singleton.mp hops
    exact Pipeline.sub_ucRefs op ((List.forall_iff_forall_mem.mp Gen.hostOps1_sub) op hop)
  have hfresh : ∀ ops ∈ ([hostOps1] : List (List (HloOp τ sig (Elt F)))), ∀ op ∈ ops, op.fresh = ∅ := by
    intro ops hops op hop
    obtain rfl : ops = hostOps1 := List.mem_singleton.mp hops
    exact (List.forall_iff_forall_mem.mp hostOps1_fresh) op hop
  rw [← hW]
  show _ ⊢ wp frame (wpE (Pipeline.defs (pcfgs (F := F)) defs₀) (Variants.lift Variants.none) (c.tc : Thread nD τ) none) Set.univ
      (Pipeline.chain (([hostOps1] : List (List (HloOp τ sig (Elt F)))).map StableHlo.seq ++ [])) Q'
  iintro ⟨Hk, Hb⟩
  iapply (Pipeline.wp_seqs_then (pcfgs (F := F)) defs₀ Variants.none c (Pipeline.ucRefs τ sig) [] [hostOps1] hsub hfresh
    (exitVal V (A 3))) $$ Hb
  iintro Hb
  rw [Pipeline.chain_nil, wp_pure, hW']
  imodintro
  iapply Hk
  icases Hb with ⟨-, H⟩
  iexact H

include hq0 hq1 hq2 in
/-- The same, stated at the program's body table. -/
theorem tail_run_defs (V : Valuation τ sig (Elt F))
    (A : (w : Fin cfg0.W) → Buf (Elt F) ((cfg0.win w).arr.view.loc (c.tc : Thread nD τ)))
    (hA0 : A 0 = V (Proc.devRef .tc main_arg2)) (hA1 : A 1 = V (Proc.devRef .tc main_arg0))
    (hA2 : A 2 = V (Proc.devRef .tc main_arg0)) (Q' : PUnit → sProp 𝕄) :
    iprop((iprop(dat.arrays A ∗ Pipeline.unscopedRest spec0 c
              (fun b => StableHlo.after hostOps1 (exitVal V (A 3)) (Proc.devRef .tc b))) -∗ Q' ⟨⟩)
        ∗ boundary (c.tc : Thread nD τ) ∗ dat.arrays A ∗ Pipeline.unscopedRest spec0 c (fun b => V (Proc.devRef .tc b)))
      ⊢ wp frame (wpE (defs (F := F)) (Variants.lift Variants.none) (c.tc : Thread nD τ) none) Set.univ
          (Pipeline.chain [StableHlo.seq hostOps1]) Q' :=
  tail_run c dat hq0 hq1 hq2 V A hA0 hA1 hA2 Q'

end Tail

end Cert.KernelIdeal.Fr

end
-- ==== Proof.ILaunch.lean ====
import proofs.«121765_j575525618299_2_alg».proof.Proof.IBody
import proofs.«121765_j575525618299_2_alg».proof.Proof.ISharedArr

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch

The two windows that read `main_arg0` hold a half of it each; everything else is the launch of one pipelined region
continued by host operations. -/

theorem q_0 (c : Dev nD) : (dats m 0 c).q 0 = fullShare := by dsimp only [dats]
theorem q_1 (c : Dev nD) : (dats m 0 c).q 1 = fullShare.left := by dsimp only [dats]
theorem q_2 (c : Dev nD) : (dats m 0 c).q 2 = fullShare.right := by dsimp only [dats]

/-- Every buffer's contents when the program ends: the ten host operations applied to the region's exit contents
    (the output array as the region leaves it, every other buffer as launched). -/
abbrev endVal (c : Dev nD) : Valuation τ sig (Elt F) :=
  StableHlo.after hostOps1 (exitVal (entryVal m c) ((dats m 0 c).arrAt 3 cfg0.N))

/-- No host operation after the region writes an argument. -/
theorem after_main_arg1 (X : Valuation τ sig (Elt F)) :
    StableHlo.after hostOps1 X (Proc.devRef .tc main_arg1) = X (Proc.devRef .tc main_arg1) :=
  StableHlo.after_of_forall_not_mem (b := Proc.devRef .tc main_arg1) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))
theorem after_main_arg3 (X : Valuation τ sig (Elt F)) :
    StableHlo.after hostOps1 X (Proc.devRef .tc main_arg3) = X (Proc.devRef .tc main_arg3) :=
  StableHlo.after_of_forall_not_mem (b := Proc.devRef .tc main_arg3) _ _ (List.forall_iff_forall_mem.mp (by
    simp only [hostOps1, List.Forall, StableHlo.nullary_writes, StableHlo.unary_writes, StableHlo.binary_writes,
      StableHlo.reshape_writes, Finset.mem_singleton]
    repeat' apply And.intro
    all_goals exact StableHlo.devRef_ne_of_ne (by decide)))

/-- The invariant before the first point is the launch's scoped rest. -/
theorem inv_first (c : Dev nD) : Pipeline.scopedRest spec0 c ⊢ (dats m 0 c).Φ 0 := by
  rw [show (dats m 0 c).Φ 0 = accInv m c 0 (Nat.zero_le _) from rfl, accInv_zero m c 0 _ rfl]
  try exact Idealize.SL.BI.Entails.refl _

/-- After the last point it gives the scoped rest back, the accumulator's contents forgotten. -/
theorem inv_last (c : Dev nD) : (dats m 0 c).Φ (Fin.last cfg0.N) ⊢ Pipeline.scopedRest spec0 c := by
  have hN : cfg0.N = 32 := N_0
  rw [show (dats m 0 c).Φ (Fin.last cfg0.N) = accInv m c (Fin.last cfg0.N).val (Nat.le_of_lt_succ (Fin.last cfg0.N).isLt) from rfl,
    accInv_pos m c _ _ (by rw [Fin.val_last]; omega), scopedRest_acc]
  iintro HS
  iexists _; iexact HS

set_option backward.isDefEq.respectTransparency.types false in
set_option maxHeartbeats 1600000 in
/-- Every weakly fair execution of the program terminates without a fault; at the end the result holds what the
    host operations compute from the output array the region leaves, and the four arguments are unchanged. -/
theorem run_main : θ_run defs (onTc (τ := τ) (main (F := F))) ⟨m, fun _ => 0, ρ⟩ (fun r => ∀ c : Dev nD,
      r.2.mem ((c.tc : Thread nD τ).loc main_v8) = endVal m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  classical
  have hcell : Function.Injective (cellOf (nD := nD) (τ := τ) (Pipeline.pin (pcfgs (F := F)) fun q => (cfgs q).toPCfg_adm)) := cellOf_inj
  refine Pipeline.θ_run_region_noSem_pf_tail (pcfgs (F := F)) (fun q => (cfgs q).toPCfg_adm) (dats m) () hcell (0 : Fin 1)
    winFacts₀0 (Pipeline.PreFacts.none _) emb₁ defs₀ Variants.none m ρ main
    (fun _ => Pipeline.chain [StableHlo.seq hostOps1])
    (hbody := fun c => (body_obligation m c).loose) (hne := block_pos0) (harr := arr_whole0) (hstage := stage_whole0)
    (howed := fun _ _ => rfl)
    (u₀ := Rounds.initOf (Pipeline.cells _ hcell) (Pipeline.launchToks _ hcell)) (hu₀ := .rfl)
    (V := entryAt m) (hmain := main_around m Variants.none)
    (hsplit := fun c => arrays_of_bufs c (dats m 0 c) (q_0 m c) (q_1 m c) (q_2 m c) (entryAt m c) _ fun w => ?hA0)
    (hpf := fun _ k => k.elim0)
    (X := fun _ => iprop(emp)) (Y := fun _ => iprop(emp))
    (Z := fun c => Pipeline.unscopedRestP Pipeline.Prefetch.none spec0 c (entryAt m c))
    (Z' := fun c => Pipeline.unscopedRestP Pipeline.Prefetch.none spec0 c (fun b => endVal m c (Proc.devRef .tc b)))
    (hX := fun c => ?hX) (hin := fun c => ?hin) (hout := fun c => ?hout) (htail := fun c Q' => ?htail)
    (QY := fun c s => ∀ b ∈ Pipeline.restRefsP sig Pipeline.Prefetch.none spec0,
      s.mem ((c.tc : Thread nD τ).loc b) = endVal m c (Proc.devRef .tc b))
    (hY := fun c s' => ?hY) (hQ := fun s h c => ?hQ)
  case hA0 => exact (show (dats m 0 c).arrAt w 0 = (dats m 0 c).A w from rfl).trans (A_eq m c w)
  case hX =>
    iintro HU
    isplitr; · iempintro
    iexact HU
  case hin =>
    refine (show _ ⊢ Pipeline.scopedRest spec0 c from ?_).trans (inv_first m c)
    iintro ⟨-, -, HR⟩; iexact HR
  case hout =>
    refine (inv_last m c).trans ?_
    iintro HR
    isplitr; · iempintro
    iexact HR
  case htail =>
    rw [Pipeline.unscopedRestP_none, Pipeline.unscopedRestP_none]
    exact tail_run_defs c (dats m 0 c) (q_0 m c) (q_1 m c) (q_2 m c) (entryVal m c) (fun w => (dats m 0 c).arrAt w cfg0.N)
      (((dats m 0 c).arrAt_in 0 rfl _).trans (A_eq m c 0)) (((dats m 0 c).arrAt_in 1 rfl _).trans (A_eq m c 1))
      (((dats m 0 c).arrAt_in 2 rfl _).trans (A_eq m c 2)) Q'
  case hY =>
    iintro ⟨-, HU, HSI⟩
    unfold Pipeline.unscopedRestP
    imodintro
    iapply (pointsTo_read_all (Pipeline.restRefsP sig Pipeline.Prefetch.none spec0) (fun b => (c.tc : Thread nD τ).loc b)
      (fun b => endVal m c (Proc.devRef .tc b)) s')
    isplitl [HU] <;> iassumption
  case hQ =>
    have hr := (h c).2.2
    refine ⟨hr main_v8 (by decide), ?_, ?_, ?_, ?_⟩
    · exact ((h c).1 1).trans (((dats m 0 c).arrAt_in 1 rfl _).trans ((A_eq m c 1).trans (entryAt_arg0 m c)))
    · exact (hr main_arg1 (by decide)).trans ((after_main_arg1 _).trans ((exitVal_main_arg1 _ _).trans (entryAt_arg1 m c)))
    · exact ((h c).1 0).trans (((dats m 0 c).arrAt_in 0 rfl _).trans ((A_eq m c 0).trans (entryAt_arg2 m c)))
    · exact (hr main_arg3 (by decide)).trans ((after_main_arg3 _).trans ((exitVal_main_arg3 _ _).trans (entryAt_arg3 m c)))

end Cert.KernelIdeal.Fr

end
-- ==== Proof.IPieces.lean ====
import proofs.«121765_j575525618299_2_alg».proof.Proof.IState

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The found pieces are the body's payloads

Every store of the body covers its whole buffer, so what a step leaves in a buffer is its last store's payload,
and every load reads a whole buffer: the block handed in, or what the store before it left. -/

theorem zero2 : (![0, 0] : Fin 2 → Nat) = fun _ => 0 := funext fun a => by fin_cases a <;> rfl
theorem zero3 : (![0, 0, 0] : Fin 3 → Nat) = fun _ => 0 := funext fun a => by fin_cases a <;> rfl

/-- A middle step adds the block product to the accumulator it found. -/
theorem accMiddle_eq (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : ¬isLast i) (x0 : Vec F S1024x2048 .f32) (x1 : Vec F S2048x64 .f32) (x2 : Vec F S1024x64 .f32) (xs : Vec F S1024x64 .f32) :
    accMiddle c i a2 ha2 a3 ha3 a4 ha4 a5 ha5 a6 ha6 hf hl x0 x1 x2 xs = k0_pay2 x0 x1 xs := by
  unfold accMiddle
  rw [View.read_writes_eq_canon _ _ _ (acc_cover_middle c i a2 ha2 a3 ha3 a4 ha4 a5 ha5 a6 ha6 hf hl x0 x1 x2 xs)]
  unfold runMiddle
  dsimp only
  rw [View.canon_unit_zero zero2]
  simp only [View.readAt_eq_ld, ha2.read_unread, ha3.read_unread, ha6.read_unread, View.ld_unit_zero (S := S1024x2048) zero2, View.ld_unit_zero (S := S2048x64) zero2, View.ld_unit_zero (S := S1024x64) zero2]

/-- A first step fills the accumulator with zeros, reads it back and adds the block product. -/
theorem accFirst_eq (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : isFirst i) (hl : ¬isLast i) (x0 : Vec F S1024x2048 .f32) (x1 : Vec F S2048x64 .f32) (x2 : Vec F S1024x64 .f32) :
    accFirst c i a2 ha2 a3 ha3 a4 ha4 a5 ha5 a6 ha6 hf hl x0 x1 x2 = k0_pay2 x0 x1 (k0_pay1 (F := F)) := by
  unfold accFirst
  rw [View.read_writes_eq_canon _ _ _ (acc_cover_first c i a2 ha2 a3 ha3 a4 ha4 a5 ha5 a6 ha6 hf hl x0 x1 x2)]
  unfold runFirst
  dsimp only
  sl_unfold_words
  rw [View.canon_cons_unit_zero (S := S1024x64) zero2, View.readCov_unit_zero (S := S1024x64) _ zero2]
  simp only [View.readAt_eq_ld, ha2.read_unread, ha3.read_unread, View.ld_unit_zero (S := S1024x2048) zero2, View.ld_unit_zero (S := S2048x64) zero2]

/-- A last step accumulates as a middle step does, -/
theorem accLast_eq (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) :
    accLast c i a2 ha2 a3 ha3 a4 ha4 a5 ha5 a6 ha6 hf hl x0 x1 x2 xs = k0_pay2 x0 x1 xs := by
  unfold accLast
  rw [View.read_writes_eq_canon _ _ _ (acc_cover_last c i a2 ha2 a3 ha3 a4 ha4 a5 ha5 a6 ha6 hf hl x0 x1 x2 xs)]
  unfold runLast
  dsimp only
  sl_unfold_words
  rw [View.canon_unit_zero zero2]
  simp only [View.readAt_eq_ld, ha2.read_unread, ha3.read_unread, ha6.read_unread, View.ld_unit_zero (S := S1024x2048) zero2, View.ld_unit_zero (S := S2048x64) zero2, View.ld_unit_zero (S := S1024x64) zero2]

/-- and stores the total of the finished accumulator against the row tile of the second operand. -/
theorem outLast_eq (c : Dev nD) (i : grid0.Coords) (a2 : Memref sig .tc .vmem S1024x2048 .f32) (ha2 : a2.IsWhole) (a3 : Memref sig .tc .vmem S2048x64 .f32) (ha3 : a3.IsWhole) (a4 : Memref sig .tc .vmem S1024x64 .f32) (ha4 : a4.IsWhole) (a5 : Memref sig .tc .vmem S1x8x128 .f32) (ha5 : a5.IsWhole) (a6 : Memref sig .tc .vmem S1024x64 .f32) (ha6 : a6.IsWhole) (hf : ¬isFirst i) (hl : isLast i) (x0 : Vec F S1024x2048 .f32) (x1 : Vec F S2048x64 .f32) (x2 : Vec F S1024x64 .f32) (xs : Vec F S1024x64 .f32) :
    outLast c i a2 ha2 a3 ha3 a4 ha4 a5 ha5 a6 ha6 hf hl x0 x1 x2 xs = k0_pay3 (k0_pay2 x0 x1 xs) x2 := by
  unfold outLast
  rw [View.read_writes_eq_canon _ _ _ (out_cover_last c i a2 ha2 a3 ha3 a4 ha4 a5 ha5 a6 ha6 hf hl x0 x1 x2 xs)]
  unfold runLast
  dsimp only
  sl_unfold_words
  rw [View.canon_unit_zero zero3, View.readCov_unit_zero (S := S1024x64) _ zero2]
  simp only [View.readAt_eq_ld, ha2.read_unread, ha3.read_unread, ha4.read_unread, ha6.read_unread, View.ld_unit_zero (S := S1024x2048) zero2, View.ld_unit_zero (S := S2048x64) zero2, View.ld_unit_zero (S := S1024x64) zero2]

end Cert.KernelIdeal.Fr

end
-- ==== Proof.IOutAt.lean ====
import proofs.«121765_j575525618299_2_alg».proof.Proof.IPieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The state after a point, through the body's payloads -/

/-- After a first step the accumulator is zero plus the point's block product. -/
theorem acc_first (c : Dev nD) (t : Fin cfg0.N) (h0 : t.val % 4 = 0) :
    (stateAt m c t.val t.isLt).2 = k0_pay2 (blockAt m c 0 t) (blockAt m c 1 t) (k0_pay1 (F := F)) := by
  have h3 : ¬t.val % 4 = 3 := by omega
  rw [stateAt_first m c t h0 h3]
  dsimp only
  exact accFirst_eq (F := F) c (grid0.coords t) (mr0 t) (wh0 t) (mr1 t) (wh1 t) (mr2 t) (wh2 t) (mr3 t) (wh3 t) accM (Memref.isWhole_whole _) ((isFirst_iff t).mpr h0) (fun h => h3 ((isLast_iff t).mp h)) (blockAt m c 0 t) (blockAt m c 1 t) (blockAt m c 2 t)

/-- After a middle step it is what the point before left plus the point's block product. -/
theorem acc_middle (c : Dev nD) (t : Fin cfg0.N) (h0 : ¬t.val % 4 = 0) (h3 : ¬t.val % 4 = 3) :
    (stateAt m c t.val t.isLt).2
      = k0_pay2 (blockAt m c 0 t) (blockAt m c 1 t) (stateAt m c (t.val - 1) (Nat.lt_of_le_of_lt (Nat.sub_le _ _) t.isLt)).2 := by
  rw [stateAt_middle m c t h0 h3]
  dsimp only
  exact accMiddle_eq (F := F) c (grid0.coords t) (mr0 t) (wh0 t) (mr1 t) (wh1 t) (mr2 t) (wh2 t) (mr3 t) (wh3 t) accM (Memref.isWhole_whole _) (fun h => h0 ((isFirst_iff t).mp h)) (fun h => h3 ((isLast_iff t).mp h)) (blockAt m c 0 t) (blockAt m c 1 t) (blockAt m c 2 t) (stateAt m c (t.val - 1) (Nat.lt_of_le_of_lt (Nat.sub_le _ _) t.isLt)).2

/-- After a last step likewise, -/
theorem acc_last (c : Dev nD) (t : Fin cfg0.N) (h3 : t.val % 4 = 3) :
    (stateAt m c t.val t.isLt).2
      = k0_pay2 (blockAt m c 0 t) (blockAt m c 1 t) (stateAt m c (t.val - 1) (Nat.lt_of_le_of_lt (Nat.sub_le _ _) t.isLt)).2 := by
  have h0 : ¬t.val % 4 = 0 := by omega
  rw [stateAt_last m c t h0 h3]
  dsimp only
  exact accLast_eq (F := F) c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2

/-- and the output block holds the total of that accumulator against the row tile of the second operand. -/
theorem out_last (c : Dev nD) (t : Fin cfg0.N) (h3 : t.val % 4 = 3) :
    (stateAt m c t.val t.isLt).1
      = k0_pay3 (k0_pay2 (blockAt m c 0 t) (blockAt m c 1 t) (stateAt m c (t.val - 1) (Nat.lt_of_le_of_lt (Nat.sub_le _ _) t.isLt)).2) (blockAt m c 2 t) := by
  have h0 : ¬t.val % 4 = 0 := by omega
  rw [stateAt_last m c t h0 h3]
  dsimp only
  exact outLast_eq (F := F) c (grid0.coords t) (mr0 t) (wh0 t) (mr1 t) (wh1 t) (mr2 t) (wh2 t) (mr3 t) (wh3 t) accM (Memref.isWhole_whole _) (fun h => h0 ((isFirst_iff t).mp h)) ((isLast_iff t).mpr h3) (blockAt m c 0 t) (blockAt m c 1 t) (blockAt m c 2 t) (stateAt m c (t.val - 1) (Nat.lt_of_le_of_lt (Nat.sub_le _ _) t.isLt)).2

end Cert.KernelIdeal.Fr

end
-- ==== Proof.TileLaw.lean ====
import Mathlib.Data.EReal.Basic
import Mathlib.Algebra.BigOperators.Fin
import Mathlib.Data.Fintype.BigOperators

/-!
# Summing a blocked matrix product block by block

Rows `0 … 8191` are cut into 8 blocks of 1024 and the contraction range `0 … 8191` into 4 blocks of 2048. Row
`R` is `1024 · i + r` and contraction position `J` is `2048 · k + j`, each in exactly one way, so a sum over `R` is
the double sum over `(i, r)` and a sum over `J` the double sum over `(k, j)`. Adding four partial products one
after another onto `0` is their sum. Nothing but associativity and commutativity of `+` and `0 + x = x` is used,
so the law holds on the extended reals with no finiteness condition.
-/

noncomputable section

open scoped BigOperators

namespace TileLaw

/-- Row `r` of row block `i`: `1024 · i + r`. -/
def row (i : Fin 8) (r : Fin 1024) : Fin 8192 := ⟨1024 * i.val + r.val, by omega⟩

/-- Position `j` of contraction block `k`: `2048 · k + j`. -/
def col (k : Fin 4) (j : Fin 2048) : Fin 8192 := ⟨2048 * k.val + j.val, by omega⟩

@[simp] theorem row_val (i : Fin 8) (r : Fin 1024) : (row i r).val = 1024 * i.val + r.val := rfl

@[simp] theorem col_val (k : Fin 4) (j : Fin 2048) : (col k j).val = 2048 * k.val + j.val := rfl

/-- Every row is `row i r` for exactly one block `i` and one offset `r`. -/
def rowEquiv : Fin 8 × Fin 1024 ≃ Fin 8192 where
  toFun p := row p.1 p.2
  invFun R := (⟨R.val / 1024, by omega⟩, ⟨R.val % 1024, by omega⟩)
  left_inv p := by
    obtain ⟨i, r⟩ := p
    refine Prod.ext (Fin.ext ?_) (Fin.ext ?_)
    · show (1024 * i.val + r.val) / 1024 = i.val
      omega
    · show (1024 * i.val + r.val) % 1024 = r.val
      omega
  right_inv R := by
    refine Fin.ext ?_
    show 1024 * (R.val / 1024) + R.val % 1024 = R.val
    omega

/-- Every contraction position is `col k j` for exactly one block `k` and one offset `j`. -/
def colEquiv : Fin 4 × Fin 2048 ≃ Fin 8192 where
  toFun p := col p.1 p.2
  invFun J := (⟨J.val / 2048, by omega⟩, ⟨J.val % 2048, by omega⟩)
  left_inv p := by
    obtain ⟨k, j⟩ := p
    refine Prod.ext (Fin.ext ?_) (Fin.ext ?_)
    · show (2048 * k.val + j.val) / 2048 = k.val
      omega
    · show (2048 * k.val + j.val) % 2048 = j.val
      omega
  right_inv J := by
    refine Fin.ext ?_
    show 2048 * (J.val / 2048) + J.val % 2048 = J.val
    omega

/-- A sum over all rows is the sum over the row blocks of the sums inside each block. -/
theorem sum_row {M : Type*} [AddCommMonoid M] (g : Fin 8192 → M) :
    ∑ R : Fin 8192, g R = ∑ i : Fin 8, ∑ r : Fin 1024, g (row i r) := by
  rw [← Equiv.sum_comp rowEquiv g, Fintype.sum_prod_type]
  rfl

/-- A sum over all contraction positions is the sum over the contraction blocks of the sums inside each block. -/
theorem sum_col {M : Type*} [AddCommMonoid M] (g : Fin 8192 → M) :
    ∑ J : Fin 8192, g J = ∑ k : Fin 4, ∑ j : Fin 2048, g (col k j) := by
  rw [← Equiv.sum_comp colEquiv g, Fintype.sum_prod_type]
  rfl

/-- Four terms added one after another onto `0`. -/
def acc4 (m : Fin 4 → EReal) : EReal := (((0 + m 0) + m 1) + m 2) + m 3

/-- Four terms added one after another onto `0` are their sum. -/
theorem acc4_eq_sum (m : Fin 4 → EReal) : acc4 m = ∑ k : Fin 4, m k := by
  rw [Fin.sum_univ_four, acc4, zero_add]

/-- The same with the four terms written out. -/
theorem add4_eq_sum (m : Fin 4 → EReal) : (((0 + m 0) + m 1) + m 2) + m 3 = ∑ k : Fin 4, m k :=
  acc4_eq_sum m

/-- The partial product of row `row i r` against contraction block `k`, at column `c`. -/
def mm (θ : Fin 8192 → Fin 8192 → EReal) (f : Fin 8192 → Fin 64 → EReal)
    (i : Fin 8) (k : Fin 4) (r : Fin 1024) (c : Fin 64) : EReal :=
  ∑ j : Fin 2048, θ (row i r) (col k j) * f (col k j) c

theorem mm_def (θ : Fin 8192 → Fin 8192 → EReal) (f : Fin 8192 → Fin 64 → EReal)
    (i : Fin 8) (k : Fin 4) (r : Fin 1024) (c : Fin 64) :
    mm θ f i k r c = ∑ j : Fin 2048, θ (row i r) (col k j) * f (col k j) c := rfl

/-- The four partial products of a row sum to the full product of that row. -/
theorem sum_mm (θ : Fin 8192 → Fin 8192 → EReal) (f : Fin 8192 → Fin 64 → EReal)
    (i : Fin 8) (r : Fin 1024) (c : Fin 64) :
    ∑ k : Fin 4, mm θ f i k r c = ∑ J : Fin 8192, θ (row i r) J * f J c :=
  (sum_col fun J => θ (row i r) J * f J c).symm

/-- THE LAW, with the four partial products summed: block by block on the left, all at once on the right. -/
theorem tile_law_sum (θ : Fin 8192 → Fin 8192 → EReal) (f : Fin 8192 → Fin 64 → EReal) :
    ∑ i : Fin 8, ∑ r : Fin 1024, ∑ c : Fin 64, (∑ k : Fin 4, mm θ f i k r c) * f (row i r) c
      = ∑ R : Fin 8192, ∑ c : Fin 64, (∑ J : Fin 8192, θ R J * f J c) * f R c := by
  rw [sum_row fun R => ∑ c : Fin 64, (∑ J : Fin 8192, θ R J * f J c) * f R c]
  refine Finset.sum_congr rfl fun i _ => Finset.sum_congr rfl fun r _ => Finset.sum_congr rfl fun c _ => ?_
  rw [sum_mm]

/-- THE LAW, with the four partial products added one after another onto `0`. -/
theorem tile_law (θ : Fin 8192 → Fin 8192 → EReal) (f : Fin 8192 → Fin 64 → EReal) :
    ∑ i : Fin 8, ∑ r : Fin 1024, ∑ c : Fin 64,
        ((((0 + mm θ f i 0 r c) + mm θ f i 1 r c) + mm θ f i 2 r c) + mm θ f i 3 r c) * f (row i r) c
      = ∑ R : Fin 8192, ∑ c : Fin 64, (∑ J : Fin 8192, θ R J * f J c) * f R c := by
  rw [← tile_law_sum]
  refine Finset.sum_congr rfl fun i _ => Finset.sum_congr rfl fun r _ => Finset.sum_congr rfl fun c _ => ?_
  rw [add4_eq_sum fun k => mm θ f i k r c]

/-- THE LAW, through `acc4`. -/
theorem tile_law_acc4 (θ : Fin 8192 → Fin 8192 → EReal) (f : Fin 8192 → Fin 64 → EReal) :
    ∑ i : Fin 8, ∑ r : Fin 1024, ∑ c : Fin 64, acc4 (fun k => mm θ f i k r c) * f (row i r) c
      = ∑ R : Fin 8192, ∑ c : Fin 64, (∑ J : Fin 8192, θ R J * f J c) * f R c :=
  tile_law θ f

/-- THE LAW with every partial product written out as its sum over the contraction block. -/
theorem tile_law_explicit (θ : Fin 8192 → Fin 8192 → EReal) (f : Fin 8192 → Fin 64 → EReal) :
    ∑ i : Fin 8, ∑ r : Fin 1024, ∑ c : Fin 64,
        ((((0 + ∑ j : Fin 2048, θ (row i r) (col 0 j) * f (col 0 j) c)
              + ∑ j : Fin 2048, θ (row i r) (col 1 j) * f (col 1 j) c)
            + ∑ j : Fin 2048, θ (row i r) (col 2 j) * f (col 2 j) c)
          + ∑ j : Fin 2048, θ (row i r) (col 3 j) * f (col 3 j) c) * f (row i r) c
      = ∑ R : Fin 8192, ∑ c : Fin 64, (∑ J : Fin 8192, θ R J * f J c) * f R c :=
  tile_law θ f

/-- The variants with a `0` in front of the sum over the row blocks, over the rows of a block, or over the columns. -/
theorem tile_law_zero_add_blocks (θ : Fin 8192 → Fin 8192 → EReal) (f : Fin 8192 → Fin 64 → EReal) :
    0 + ∑ i : Fin 8, (0 + ∑ r : Fin 1024, (0 + ∑ c : Fin 64,
        ((((0 + mm θ f i 0 r c) + mm θ f i 1 r c) + mm θ f i 2 r c) + mm θ f i 3 r c) * f (row i r) c))
      = ∑ R : Fin 8192, ∑ c : Fin 64, (∑ J : Fin 8192, θ R J * f J c) * f R c := by
  simp only [zero_add]
  have h := tile_law θ f
  simp only [zero_add] at h
  exact h

end TileLaw

end
-- ==== Proof.IBlocks.lean ====
import proofs.«121765_j575525618299_2_alg».proof.Proof.IBase
import proofs.«121765_j575525618299_2_alg».proof.Proof.TileLaw
import Idealize.ShloMosaic.Lib.ValueIdx
import Idealize.ShloMosaic.Lib.Pipeline.Value

/-!
# Where the blocks of the grid sit in their arrays

The grid is `8 × 4` and runs row-major: point `t` is row tile `t / 4` and contraction step `t % 4`.
At point `t` the three input blocks are

* rows `1024 · (t / 4) + r` and columns `2048 · (t % 4) + j` of the `8192 × 8192` matrix,
* rows `2048 · (t % 4) + j` of the `8192 × 64` matrix (all 64 columns),
* rows `1024 · (t / 4) + r` of the same `8192 × 64` matrix,

and the output block is slab `t / 4` of the `8 × 8 × 128` result. A block's coordinate in its array is
always block index × block size + the coordinate inside the block. Slab `i` of the result is written
back at the one point `4 · i + 3`, so the eight slabs written back cover the result.
-/

set_option maxRecDepth 16384

noncomputable section

namespace Cert.KernelIdeal.Fr

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-! ## The grid's coordinates and the windows' block indices, over the 32 points -/

theorem coords_tile : ∀ t : Fin cfg0.N, (grid0.coords t 0).val = t.val / 4 :=
  (by decide +kernel : ∀ t : Fin grid0.N, (grid0.coords t 0).val = t.val / 4)
theorem coords_step : ∀ t : Fin cfg0.N, (grid0.coords t 1).val = t.val % 4 :=
  (by decide +kernel : ∀ t : Fin grid0.N, (grid0.coords t 1).val = t.val % 4)

theorem index0_row : ∀ t : Fin cfg0.N, win0_0.index t 0 = t.val / 4 :=
  (by decide +kernel : ∀ t : Fin grid0.N, win0_0.index t 0 = t.val / 4)
theorem index0_col : ∀ t : Fin cfg0.N, win0_0.index t 1 = t.val % 4 :=
  (by decide +kernel : ∀ t : Fin grid0.N, win0_0.index t 1 = t.val % 4)
theorem index1_row : ∀ t : Fin cfg0.N, win0_1.index t 0 = t.val % 4 :=
  (by decide +kernel : ∀ t : Fin grid0.N, win0_1.index t 0 = t.val % 4)
theorem index1_col : ∀ t : Fin cfg0.N, win0_1.index t 1 = 0 :=
  (by decide +kernel : ∀ t : Fin grid0.N, win0_1.index t 1 = 0)
theorem index2_row : ∀ t : Fin cfg0.N, win0_2.index t 0 = t.val / 4 :=
  (by decide +kernel : ∀ t : Fin grid0.N, win0_2.index t 0 = t.val / 4)
theorem index2_col : ∀ t : Fin cfg0.N, win0_2.index t 1 = 0 :=
  (by decide +kernel : ∀ t : Fin grid0.N, win0_2.index t 1 = 0)
theorem index3_slab : ∀ t : Fin cfg0.N, win0_3.index t 0 = t.val / 4 :=
  (by decide +kernel : ∀ t : Fin grid0.N, win0_3.index t 0 = t.val / 4)
theorem index3_row : ∀ t : Fin cfg0.N, win0_3.index t 1 = 0 :=
  (by decide +kernel : ∀ t : Fin grid0.N, win0_3.index t 1 = 0)
theorem index3_lane : ∀ t : Fin cfg0.N, win0_3.index t 2 = 0 :=
  (by decide +kernel : ∀ t : Fin grid0.N, win0_3.index t 2 = 0)

/-- The row tile of point `t`. -/
def tileOf (t : Fin cfg0.N) : Fin 8 :=
  ⟨t.val / 4, by have hN : cfg0.N = 32 := N_0; have := t.isLt; omega⟩
/-- The contraction step of point `t`. -/
def stepOf (t : Fin cfg0.N) : Fin 4 := ⟨t.val % 4, by omega⟩
@[simp] theorem tileOf_val (t : Fin cfg0.N) : (tileOf t).val = t.val / 4 := rfl
@[simp] theorem stepOf_val (t : Fin cfg0.N) : (stepOf t).val = t.val % 4 := rfl

/-! ## The input blocks read at coordinates -/

/-- The block of the square matrix at point `t`: rows of tile `t / 4`, columns of step `t % 4`. -/
theorem blockAt0_apply (c : Dev nD) (t : Fin cfg0.N) (r : Fin 1024) (j : Fin 2048) :
    (blockAt m c 0 t : Vec F S1024x2048 .f32) (ValueIdx.ix2 r j)
      = (m ((c : Thread nD τ).loc main_arg2) : S8192x8192.Idx → Elt F .f32)
          (ValueIdx.ix2 (TileLaw.row (tileOf t) r) (TileLaw.col (stepOf t) j)) := by
  unfold blockAt
  rw [View.read_apply]
  show entryAt m c main_arg2 _ = m (c.tc.loc main_arg2) _
  rw [entryAt_arg2]
  congr 1
  funext a
  apply Fin.ext
  match a with
  | ⟨0, _⟩ => show win0_0.index t 0 * 1024 + 1 * r.val = 1024 * (t.val / 4) + r.val; rw [index0_row]; omega
  | ⟨1, _⟩ => show win0_0.index t 1 * 2048 + 1 * j.val = 2048 * (t.val % 4) + j.val; rw [index0_col]; omega

/-- The block of the tall matrix that the product contracts against at point `t`: rows of step `t % 4`. -/
theorem blockAt1_apply (c : Dev nD) (t : Fin cfg0.N) (j : Fin 2048) (cc : Fin 64) :
    (blockAt m c 1 t : Vec F S2048x64 .f32) (ValueIdx.ix2 j cc)
      = (m ((c : Thread nD τ).loc main_arg0) : S8192x64.Idx → Elt F .f32)
          (ValueIdx.ix2 (TileLaw.col (stepOf t) j) cc) := by
  unfold blockAt
  rw [View.read_apply]
  show entryAt m c main_arg0 _ = m (c.tc.loc main_arg0) _
  rw [entryAt_arg0]
  congr 1
  funext a
  apply Fin.ext
  match a with
  | ⟨0, _⟩ => show win0_1.index t 0 * 2048 + 1 * j.val = 2048 * (t.val % 4) + j.val; rw [index1_row]; omega
  | ⟨1, _⟩ => show win0_1.index t 1 * 64 + 1 * cc.val = cc.val; rw [index1_col]; omega

/-- The block of the tall matrix that the row tile is multiplied with entrywise: rows of tile `t / 4`. -/
theorem blockAt2_apply (c : Dev nD) (t : Fin cfg0.N) (r : Fin 1024) (cc : Fin 64) :
    (blockAt m c 2 t : Vec F S1024x64 .f32) (ValueIdx.ix2 r cc)
      = (m ((c : Thread nD τ).loc main_arg0) : S8192x64.Idx → Elt F .f32)
          (ValueIdx.ix2 (TileLaw.row (tileOf t) r) cc) := by
  unfold blockAt
  rw [View.read_apply]
  show entryAt m c main_arg0 _ = m (c.tc.loc main_arg0) _
  rw [entryAt_arg0]
  congr 1
  funext a
  apply Fin.ext
  match a with
  | ⟨0, _⟩ => show win0_2.index t 0 * 1024 + 1 * r.val = 1024 * (t.val / 4) + r.val; rw [index2_row]; omega
  | ⟨1, _⟩ => show win0_2.index t 1 * 64 + 1 * cc.val = cc.val; rw [index2_col]; omega

/-! ## The output block in the result array -/

/-- Slab `t / 4` of the result, read through the output block of point `t`: position `(p, q, l)` of the block is
    position `(t / 4, q, l)` of the array. -/
theorem outBlock_read (c : Dev nD) (G : Buf (Elt F) ((c : Thread nD τ).loc main_v0)) (t : Fin cfg0.N)
    (p : Fin 1) (q : Fin 8) (l : Fin 128) :
    (((cfg0.win 3).blk t).view.read (Elt F) G : Vec F S1x8x128 .f32) (ValueIdx.ix3 p q l)
      = (G : S8x8x128.Idx → Elt F .f32) (ValueIdx.ix3 (tileOf t) q l) := by
  rw [View.read_apply]
  show (G : S8x8x128.Idx → Elt F .f32) _ = (G : S8x8x128.Idx → Elt F .f32) _
  congr 1
  funext a
  apply Fin.ext
  match a with
  | ⟨0, _⟩ => show win0_3.index t 0 * 1 + 1 * p.val = t.val / 4; rw [index3_slab]; omega
  | ⟨1, _⟩ => show win0_3.index t 1 * 8 + 1 * q.val = q.val; rw [index3_row]; omega
  | ⟨2, _⟩ => show win0_3.index t 2 * 128 + 1 * l.val = l.val; rw [index3_lane]; omega

/-- The same at an arbitrary position `y` of the block. -/
theorem outBlock_read_idx (c : Dev nD) (G : Buf (Elt F) ((c : Thread nD τ).loc main_v0)) (t : Fin cfg0.N)
    (y : S1x8x128.Idx) :
    (((cfg0.win 3).blk t).view.read (Elt F) G : Vec F S1x8x128 .f32) y
      = (G : S8x8x128.Idx → Elt F .f32) (ValueIdx.ix3 (tileOf t) (y 1) (y 2)) := by
  rw [ValueIdx.eq_ix3 y]
  exact outBlock_read c G t (y 0) (y 1) (y 2)

/-- Every position of the result lies in the slab written back at the last contraction step of its row tile:
    position `(i₀, i₁, i₂)` is covered by point `4 · i₀ + 3`. -/
theorem out_cover (i : S8x8x128.Idx) :
    ∃ t : Fin cfg0.N, (cfg0.win 3).flush t = true ∧ i ∈ ((cfg0.win 3).blk t).view.set := by
  have hN : cfg0.N = 32 := N_0
  have h0 : (i 0 : Nat) < 8 := (i 0).isLt
  have h1 : (i 1 : Nat) < 8 := (i 1).isLt
  have h2 : (i 2 : Nat) < 128 := (i 2).isLt
  obtain ⟨t, ht⟩ : ∃ t : Fin cfg0.N, t.val = 4 * (i 0 : Nat) + 3 := ⟨⟨4 * (i 0 : Nat) + 3, by omega⟩, rfl⟩
  refine ⟨t, (flush0_3 t).mpr (by omega), ?_⟩
  show i ∈ ((View.whole main_v0).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + 1
    rw [index3_slab]; omega
  | ⟨1, _⟩ =>
    show win0_3.index t 1 * 8 ≤ (i 1 : Nat) ∧ (i 1 : Nat) < win0_3.index t 1 * 8 + 8
    rw [index3_row]; omega
  | ⟨2, _⟩ =>
    show win0_3.index t 2 * 128 ≤ (i 2 : Nat) ∧ (i 2 : Nat) < win0_3.index t 2 * 128 + 128
    rw [index3_lane]; omega

end Cert.KernelIdeal.Fr

end
-- ==== Proof.Payloads.lean ====
import proofs.«121765_j575525618299_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-!
# The three stored values of the kernel body, read at an index over the extended reals

At a grid point `(i, k)` the body keeps a `1024 × 64` running block `A`:

* at `k = 0` it first overwrites `A` with the zero block (`pay1_apply`);
* at every `k` it replaces `A` by `A + Θ_blk · F_blk`, where `Θ_blk` is `1024 × 2048` and `F_blk` is
  `2048 × 64`; entry `(r, c)` of the new block is `A r c + ∑ j, Θ_blk r j * F_blk j c` (`pay2_apply`) —
  rounding the factors to bf16 changes nothing over the extended reals, and the product accumulates
  into a zero block, so only `0 + x = x` is used;
* at `k = 3` it writes, at every position of a `1 × 8 × 128` block, the one number
  `∑ r, ∑ c, A r c * G r c` (`pay3_apply`): a sum along the lanes, then along the rows, each started
  from zero, then the single entry repeated.

No distributivity and no finiteness is needed anywhere here.
-/

noncomputable section

namespace Cert.KernelIdeal.Pay

open Cert.KernelIdeal Cert.KernelIdeal.Gen Idealize.ShloMosaic Idealize.SL.Sem

/-! ## Layout steps at an index -/

/-- A length-`a` vector viewed as an `a × 1` column reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `1 × 1 × 1` array repeated over an `a × b × c` array reads its one entry everywhere. -/
theorem broadcastTo_111_apply {α : Type} {a b c : ℕ} (v : (⟨3, ![1, 1, 1]⟩ : Shape).Idx → α)
    (h : (⟨3, ![1, 1, 1]⟩ : Shape).Broadcasts ⟨3, ![a, b, c]⟩) (j : (⟨3, ![a, b, c]⟩ : Shape).Idx) :
    broadcastTo ⟨3, ![a, b, c]⟩ v h j = v (ValueIdx.ix3 (0 : Fin 1) (0 : Fin 1) (0 : Fin 1)) := by
  refine broadcastTo_apply v h j _ fun ax => ?_
  match ax with
  | ⟨0, _⟩ => exact (if_pos rfl).symm
  | ⟨1, _⟩ => exact (if_pos rfl).symm
  | ⟨2, _⟩ => exact (if_pos rfl).symm

/-! ## The reset value -/

/-- The block written at the first step of a row of grid points is zero everywhere. -/
theorem pay1_apply (y : S1024x64.Idx) : k0_pay1 (F := Ideal) y = 0 := by
  unfold k0_pay1
  rw [shapeCast_self]
  exact Ideal.ofBits_zero_f32

/-! ## The accumulation step -/

/-- The left factor's row coordinate is the output's row. -/
theorem lhsIdx_row (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

/-- The left factor's column coordinate is the contraction coordinate. -/
theorem lhsIdx_col (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q

/-- The right factor's row coordinate is the contraction coordinate. -/
theorem rhsIdx_row (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q

/-- The right factor's column coordinate is the output's column. -/
theorem rhsIdx_col (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- The left factor's index at output `(r, c)` and contraction coordinate `k` is `(r, k)`. -/
theorem lhsIdx_eq (r : Fin 1024) (c : Fin 64) (k : Fin 2048) :
    dot_S1024x2048_S2048x64_S1024x64_1_0_0_1_n_n.lhsIdx (ValueIdx.ix2 r c)
        ((ValueIdx.contrEquiv1 dot_S1024x2048_S2048x64_S1024x64_1_0_0_1_n_n 2048 rfl rfl).symm k)
      = ValueIdx.ix2 r k := by
  have hk := ValueIdx.contrEquiv1_symm_val dot_S1024x2048_S2048x64_S1024x64_1_0_0_1_n_n 2048 rfl rfl k
  refine funext fun a => Fin.ext ?_
  match a with
  | ⟨0, _⟩ => exact lhsIdx_row _ _
  | ⟨1, _⟩ => exact (lhsIdx_col _ _).trans hk

/-- The right factor's index at output `(r, c)` and contraction coordinate `k` is `(k, c)`. -/
theorem rhsIdx_eq (r : Fin 1024) (c : Fin 64) (k : Fin 2048) :
    dot_S1024x2048_S2048x64_S1024x64_1_0_0_1_n_n.rhsIdx (ValueIdx.ix2 r c)
        ((ValueIdx.contrEquiv1 dot_S1024x2048_S2048x64_S1024x64_1_0_0_1_n_n 2048 rfl rfl).symm k)
      = ValueIdx.ix2 k c := by
  have hk := ValueIdx.contrEquiv1_symm_val dot_S1024x2048_S2048x64_S1024x64_1_0_0_1_n_n 2048 rfl rfl k
  refine funext fun a => Fin.ext ?_
  match a with
  | ⟨0, _⟩ => exact (rhsIdx_row _ _).trans hk
  | ⟨1, _⟩ => exact rhsIdx_col _ _

/-- Entry `(r, c)` of the new running block: the old entry plus the row-by-column product of the two
    loaded blocks. -/
theorem pay2_apply (v3 : Vec Ideal S1024x2048 .f32) (v5 : Vec Ideal S2048x64 .f32) (v7 : Vec Ideal S1024x64 .f32)
    (r : Fin 1024) (c : Fin 64) :
    k0_pay2 (F := Ideal) v3 v5 v7 (ValueIdx.ix2 r c)
      = v7 (ValueIdx.ix2 r c) + ∑ j : Fin 2048, v3 (ValueIdx.ix2 r j) * v5 (ValueIdx.ix2 j c) := by
  unfold k0_pay2
  rw [shapeCast_self]
  refine congrArg (v7 (ValueIdx.ix2 r c) + ·) ?_
  refine (Ideal.matmul_constant_zero_apply dot_S1024x2048_S2048x64_S1024x64_1_0_0_1_n_n none _ _ (ValueIdx.ix2 r c)).trans ?_
  rw [← Equiv.sum_comp (ValueIdx.contrEquiv1 dot_S1024x2048_S2048x64_S1024x64_1_0_0_1_n_n 2048 rfl rfl).symm]
  refine Finset.sum_congr rfl fun k _ => ?_
  rw [lhsIdx_eq r c k, rhsIdx_eq r c k]
  rfl

/-! ## The closing step -/

/-- Row `r` of the block with the lane coordinate `c` put back is `(r, c)`. -/
theorem lift_lane (h : S1024x64.Reduces [1] S1024) (r : Fin 1024) (c : Fin 64) :
    h.lift (ValueIdx.ix1 r) c = ValueIdx.ix2 r c :=
  funext fun a => Fin.ext (by match a with | ⟨0, _⟩ => rfl | ⟨1, _⟩ => rfl)

/-- The one entry of the column's sum with the row coordinate `r` put back is `(r, 0)`. -/
theorem lift_row (h : S1024x1.Reduces [0] S1) (r : Fin 1024) :
    h.lift (ValueIdx.ix1 (0 : Fin 1)) r = ValueIdx.ix2 r (0 : Fin 1) :=
  funext fun a => Fin.ext (by match a with | ⟨0, _⟩ => rfl | ⟨1, _⟩ => rfl)

/-- Every position of the stored `1 × 8 × 128` block holds the sum over the whole `1024 × 64` block of
    the entrywise products. -/
theorem pay3_apply (v16 v17 : Vec Ideal S1024x64 .f32) (y : S1x8x128.Idx) :
    k0_pay3 (F := Ideal) v16 v17 y
      = ∑ r : Fin 1024, ∑ c : Fin 64, v16 (ValueIdx.ix2 r c) * v17 (ValueIdx.ix2 r c) := by
  unfold k0_pay3
  refine (broadcastTo_111_apply _ _ y).trans ?_
  rw [shapeCast_self]
  refine (ValueIdx.shapeCast_ab_1ab_apply _ _ (0 : Fin 1) (0 : Fin 1) (0 : Fin 1)).trans ?_
  refine (ValueIdx.shapeCast_a_1a_apply _ _ (0 : Fin 1) (0 : Fin 1)).trans ?_
  refine (Ideal.multiReduction_add_single _ _ _ _ _ _).trans (Finset.sum_congr rfl fun (r : Fin 1024) _ => ?_)
  rw [lift_row]
  refine (shapeCast_a_a1_apply _ _ r (0 : Fin 1)).trans ?_
  refine (Ideal.multiReduction_add_single _ _ _ _ _ _).trans (Finset.sum_congr rfl fun (c : Fin 64) _ => ?_)
  rw [lift_lane]
  rfl

end Cert.KernelIdeal.Pay

end
-- ==== Proof.IValue.lean ====
import proofs.«121765_j575525618299_2_alg».proof.Proof.IOutAt
import proofs.«121765_j575525618299_2_alg».proof.Proof.IBlocks
import proofs.«121765_j575525618299_2_alg».proof.Proof.Payloads
import proofs.«121765_j575525618299_2_alg».proof.Proof.TileLaw
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx (ix2 ix3)

variable (m : (ℓ : Loc nD τ sig) → Buf (Elt Ideal) ℓ) (ρ : Dev nD → PrngReg)

/-! ## The accumulator and the output block over the extended reals

With `Θ` the first operand and `Φ` the second as functions of their coordinates, the accumulator of row tile `i`
after contraction step `k` holds, at `(r, c)`, the ordered sum of the block products `mm i 0 … mm i k`. -/

/-- The first operand (an 8192 × 8192 array) by coordinates. -/
abbrev opTheta (c : Dev nD) : Fin 8192 → Fin 8192 → EReal := fun R J =>
  (m ((c : Thread nD τ).loc main_arg2) : S8192x8192.Idx → Elt Ideal .f32) (ix2 R J)
/-- The second operand (an 8192 × 64 array) by coordinates. -/
abbrev opPhi (c : Dev nD) : Fin 8192 → Fin 64 → EReal := fun J cc =>
  (m ((c : Thread nD τ).loc main_arg0) : S8192x64.Idx → Elt Ideal .f32) (ix2 J cc)

/-- The block product the point `t` adds, at `(r, c)`. -/
theorem product_at (c : Dev nD) (t : Fin cfg0.N) (r : Fin 1024) (cc : Fin 64)
    (x : Vec Ideal S1024x2048 .f32) (y : Vec Ideal S2048x64 .f32) (hx : x = blockAt m c 0 t) (hy : y = blockAt m c 1 t) :
    (∑ j : Fin 2048, x (ix2 r j) * y (ix2 j cc))
      = TileLaw.mm (opTheta m c) (opPhi m c) (tileOf t) (stepOf t) r cc := by
  subst hx hy
  unfold TileLaw.mm
  refine Finset.sum_congr rfl fun j _ => ?_
  rw [blockAt0_apply, blockAt1_apply]

/-- A first step leaves zero plus its block product. -/
theorem acc_at_first (c : Dev nD) (n : ℕ) (hn : n < cfg0.N) (h0 : n % 4 = 0) (r : Fin 1024) (cc : Fin 64) :
    (stateAt m c n hn).2 (ix2 r cc) = 0 + TileLaw.mm (opTheta m c) (opPhi m c) (tileOf ⟨n, hn⟩) (stepOf ⟨n, hn⟩) r cc := by
  rw [acc_first m c ⟨n, hn⟩ h0, Pay.pay2_apply, Pay.pay1_apply, product_at m c ⟨n, hn⟩ r cc _ _ rfl rfl]

/-- Any later step adds its block product to what the point before left. -/
theorem acc_at_next (c : Dev nD) (n : ℕ) (hn : n + 1 < cfg0.N) (h0 : ¬(n + 1) % 4 = 0) (r : Fin 1024) (cc : Fin 64) :
    (stateAt m c (n + 1) hn).2 (ix2 r cc)
      = (stateAt m c n (Nat.lt_of_succ_lt hn)).2 (ix2 r cc)
        + TileLaw.mm (opTheta m c) (opPhi m c) (tileOf ⟨n + 1, hn⟩) (stepOf ⟨n + 1, hn⟩) r cc := by
  by_cases h3 : (n + 1) % 4 = 3
  · rw [acc_last m c ⟨n + 1, hn⟩ h3, Pay.pay2_apply, product_at m c ⟨n + 1, hn⟩ r cc _ _ rfl rfl]; rfl
  · rw [acc_middle m c ⟨n + 1, hn⟩ h0 h3, Pay.pay2_apply, product_at m c ⟨n + 1, hn⟩ r cc _ _ rfl rfl]; rfl

theorem stateAt_congr (c : Dev nD) {n n' : ℕ} (h : n = n') (hn : n < cfg0.N) (hn' : n' < cfg0.N) :
    stateAt m c n hn = stateAt m c n' hn' := by
  subst h; rfl

theorem lt_N (i : Fin 8) (k : ℕ) (hk : k < 4) : 4 * i.val + k < cfg0.N := by
  rw [show cfg0.N = 32 from N_0]; omega

/-- After the last step of row tile `i` the accumulator is the ordered sum of the tile's four block products. -/
theorem acc_tile (c : Dev nD) (i : Fin 8) (r : Fin 1024) (cc : Fin 64) :
    (stateAt m c (4 * i.val + 3) (lt_N i 3 (by decide))).2 (ix2 r cc)
      = TileLaw.acc4 fun k => TileLaw.mm (opTheta m c) (opPhi m c) i k r cc := by
  have e3 := acc_at_next m c (4 * i.val + 2) (lt_N i 3 (by decide)) (by omega) r cc
  have e2 := acc_at_next m c (4 * i.val + 1) (lt_N i 2 (by decide)) (by omega) r cc
  have e1 := acc_at_next m c (4 * i.val + 0) (lt_N i 1 (by decide)) (by omega) r cc
  have e0 := acc_at_first m c (4 * i.val + 0) (lt_N i 0 (by decide)) (by omega) r cc
  have ti : ∀ (k : ℕ) (hk : k < 4), tileOf ⟨4 * i.val + k, lt_N i k hk⟩ = i := fun k hk => Fin.ext (by rw [tileOf_val]; dsimp only; omega)
  have si : ∀ (k : ℕ) (hk : k < 4), stepOf ⟨4 * i.val + k, lt_N i k hk⟩ = ⟨k, hk⟩ := fun k hk => Fin.ext (by rw [stepOf_val]; dsimp only; omega)
  rw [ti 3 (by decide), si 3 (by decide)] at e3
  rw [ti 2 (by decide), si 2 (by decide)] at e2
  rw [ti 1 (by decide), si 1 (by decide)] at e1
  rw [ti 0 (by decide), si 0 (by decide)] at e0
  unfold TileLaw.acc4
  rw [e3, e2, e1, e0]
  rfl

/-- The total row tile `i` contributes. -/
def tileTotal (c : Dev nD) (i : Fin 8) : EReal :=
  ∑ r : Fin 1024, ∑ cc : Fin 64,
    (TileLaw.acc4 fun k => TileLaw.mm (opTheta m c) (opPhi m c) i k r cc) * opPhi m c (TileLaw.row i r) cc

/-- The output array the region leaves: slab `i` holds row tile `i`'s total at every position. -/
def outArray (c : Dev nD) : Buf (Elt Ideal) ((c : Thread nD τ).loc main_v0) := fun y => tileTotal m c (y 0)

/-- What a last step writes back is its slab of that array. -/
theorem flushed_out (c : Dev nD) (t : Fin cfg0.N) (hf : (cfg0.win 3).flush t = true) :
    (dats m 0 c).flushed 3 t = ((cfg0.win 3).blk t).view.read (Elt Ideal) (outArray m c) := by
  have hN : cfg0.N = 32 := N_0
  have h3 : t.val % 4 = 3 := (flush0_3 t).mp hf
  show (cfg0.win 3).cut (grid0.coords t) ((dats m 0 c).after 3 t) = _
  rw [after_3, out_last m c t h3]
  funext y
  refine Eq.trans ?_ (outBlock_read_idx c (outArray m c) t y).symm
  refine (Pay.pay3_apply _ _ y).trans ?_
  show _ = tileTotal m c (tileOf t)
  unfold tileTotal
  have ht : t.val = 4 * (tileOf t).val + 3 := by rw [tileOf_val]; omega
  refine Finset.sum_congr rfl fun r _ => Finset.sum_congr rfl fun cc _ => ?_
  have key : (stateAt m c t.val t.isLt).2 (ix2 r cc)
      = TileLaw.acc4 fun k => TileLaw.mm (opTheta m c) (opPhi m c) (tileOf t) k r cc := by
    rw [stateAt_congr m c ht t.isLt (lt_N (tileOf t) 3 (by decide))]
    exact acc_tile m c (tileOf t) r cc
  rw [blockAt2_apply, ← acc_last m c t h3, key]

/-- So the output array ends holding every row tile's total across its slab. -/
theorem final_out (c : Dev nD) : (dats m 0 c).arrAt 3 cfg0.N = outArray m c :=
  (dats m 0 c).arrAt_eq_of_cover 3 (outArray m c) (flushed_out m c) out_cover

end Cert.KernelIdeal.Fr

end
-- ==== Proof.HostTail.lean ====
import proofs.«121765_j575525618299_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws

/-!
# The first four host steps after the kernel, over the extended reals

The kernel leaves an `8 × 8 × 128` array whose block `t` holds one number repeated at every position.
The host then keeps the corner entry `(t, 0, 0)` of each block (a slice to `8 × 1 × 1`, flattened to
length `8`) and adds the eight numbers up, starting from zero. So the scalar it produces is
`∑ t, out (t, 0, 0)`; only `0 + x = x` is used.
-/

noncomputable section

namespace Cert.KernelIdeal.Tail

open Cert.KernelIdeal Cert.KernelIdeal.Gen Idealize.ShloMosaic Idealize.ShloMosaic.TcCoe Idealize.SL.Sem
  Idealize.ShloMosaic.StableHlo

/-! ## Layout steps at an index -/

/-- An `a × 1 × 1` array flattened to length `a` reads, at `t`, the array at `(t, 0, 0)`. -/
theorem shapeCast_a11_a_apply {α : Type} {a : ℕ} (x : (⟨3, ![a, 1, 1]⟩ : Shape).Idx → α)
    (h : (⟨3, ![a, 1, 1]⟩ : Shape).ShapeCasts ⟨1, ![a]⟩) (t : Fin a) :
    shapeCast ⟨1, ![a]⟩ x h (ValueIdx.ix1 t) = x (ValueIdx.ix3 t (0 : Fin 1) (0 : Fin 1)) :=
  shapeCast_apply x h _ _ (by
    rw [Shape.rowMajor_val_three, Shape.rowMajor_val_one]
    show (t.val * 1 + 0) * 1 + 0 = t.val
    omega)

/-- The corner slice `[0:8, 0:1, 0:1]` of an `8 × 8 × 128` array reads, at `(t, 0, 0)`, the array at
    `(t, 0, 0)`. -/
theorem slice_corner_apply {α : Type} (x : S8x8x128.Idx → α) (h : S8x8x128.Slices ![0, 0, 0] S8x1x1) (t : Fin 8) :
    extractStridedSlice S8x1x1 ![0, 0, 0] x h (ValueIdx.ix3 t (0 : Fin 1) (0 : Fin 1))
      = x (ValueIdx.ix3 t (0 : Fin 8) (0 : Fin 128)) :=
  extractStridedSlice_apply _ x h _ _ fun a => by
    match a with
    | ⟨0, _⟩ => exact (Nat.zero_add _).symm
    | ⟨1, _⟩ => rfl
    | ⟨2, _⟩ => rfl

/-- A sum over the indices of a length-`n` vector is the sum over its coordinate. -/
theorem sum_idx1 {M : Type*} [AddCommMonoid M] {n : ℕ} (f : (⟨1, ![n]⟩ : Shape).Idx → M) :
    ∑ i, f i = ∑ a : Fin n, f (ValueIdx.ix1 a) :=
  (Equiv.sum_comp (⟨fun a => ValueIdx.ix1 a, fun i => i 0, fun _ => rfl, fun i => (ValueIdx.eq_ix1 i).symm⟩ :
    Fin n ≃ (⟨1, ![n]⟩ : Shape).Idx) f).symm

/-! ## The sum of the corner entries -/

/-- Slice, flatten, add up from zero: the sum of the eight corner entries. -/
theorem tail_sum (out : (⟨S8x8x128, .f32⟩ : BufTy).Contents (Elt Ideal)) (i : S_.Idx) :
    Host.reduceAdd (F := Ideal)
        (shapeCast S8 (extractStridedSlice S8x1x1 ![0, 0, 0] out slices_S8x8x128_S8x1x1_0_0_0) shapeCasts_S8x1x1_S8)
        (constant (F := Ideal) S_ .f32 0x00000000#32) reducesTo_S8_S_d0 h_S_ i
      = ∑ t : Fin 8, out (ValueIdx.ix3 t (0 : Fin 8) (0 : Fin 128)) := by
  simp only [Host.reduceAdd, Ideal.hostReduceAdd_def]
  refine (Ideal.hostReduceAdd_total reducesTo_S8_S_d0 (fun b => b.elim0) _ _ i).trans ?_
  refine (congrArg (· + _) Ideal.ofBits_zero_f32).trans ?_
  rw [zero_add, sum_idx1]
  refine Finset.sum_congr rfl fun (t : Fin 8) _ => ?_
  exact (shapeCast_a11_a_apply _ _ t).trans (slice_corner_apply out _ t)

/-- The same, stated over the buffer contents after the ten host steps: the buffer of the fourth step
    holds the sum of the corner entries of the kernel's result buffer `out`. -/
theorem after_main_v3 (W : Valuation τ sig (Elt Ideal)) (out : (⟨S8x8x128, .f32⟩ : BufTy).Contents (Elt Ideal))
    (hout : W (Proc.devRef .tc main_v0) = out) (i : S_.Idx) :
    StableHlo.after (hostOps1 (F := Ideal)) W (Proc.devRef .tc main_v3) i
      = ∑ t : Fin 8, out (ValueIdx.ix3 t (0 : Fin 8) (0 : Fin 128)) := by
  have e : StableHlo.after (hostOps1 (F := Ideal)) W (Proc.devRef .tc main_v3)
      = Host.reduceAdd (F := Ideal)
          (shapeCast S8 (extractStridedSlice S8x1x1 ![0, 0, 0] out slices_S8x8x128_S8x1x1_0_0_0) shapeCasts_S8x1x1_S8)
          (constant (F := Ideal) S_ .f32 0x00000000#32) reducesTo_S8_S_d0 h_S_ := by
    subst hout
    after_results
    rfl
  rw [e]
  exact tail_sum out i

/-- The second term of the result, which the host computes from the arguments alone: the scalar argument times
    the sum of the squared entries of the `64 × 64` product of the two `8192 × 64` arguments contracted along their
    rows. It is carried as one function and never opened. -/
def secondTerm (x0 x1 : (⟨S8192x64, .f32⟩ : BufTy).Contents (Elt Ideal)) (x3 : (⟨S_, .f32⟩ : BufTy).Contents (Elt Ideal)) :
    (⟨S_, .f32⟩ : BufTy).Contents (Elt Ideal) :=
  mulf x3 (Host.reduceAdd (F := Ideal)
    (mulf (Host.dotGeneral (F := Ideal) (φ₁ := .f32) (φ₂ := .f32) dot_S8192x64_S8192x64_S64x64_0_0_1_1_n_n none x1 x0)
      (Host.dotGeneral (F := Ideal) (φ₁ := .f32) (φ₂ := .f32) dot_S8192x64_S8192x64_S64x64_0_0_1_1_n_n none x1 x0))
    (constant (F := Ideal) S_ .f32 0x00000000#32) reducesTo_S64x64_S_d0_1 h_S_)

/-- After the ten host steps the result buffer holds the sum of the corner entries of the kernel's result buffer
    `out` plus the second term. -/
theorem after_main_v8 (W : Valuation τ sig (Elt Ideal)) (out : (⟨S8x8x128, .f32⟩ : BufTy).Contents (Elt Ideal))
    (x0 x1 : (⟨S8192x64, .f32⟩ : BufTy).Contents (Elt Ideal)) (x3 : (⟨S_, .f32⟩ : BufTy).Contents (Elt Ideal))
    (hout : W (Proc.devRef .tc main_v0) = out) (h0 : W (Proc.devRef .tc main_arg0) = x0)
    (h1 : W (Proc.devRef .tc main_arg1) = x1) (h3 : W (Proc.devRef .tc main_arg3) = x3) (i : S_.Idx) :
    StableHlo.after (hostOps1 (F := Ideal)) W (Proc.devRef .tc main_v8) i
      = (∑ t : Fin 8, out (ValueIdx.ix3 t (0 : Fin 8) (0 : Fin 128))) + secondTerm x0 x1 x3 i := by
  have e : StableHlo.after (hostOps1 (F := Ideal)) W (Proc.devRef .tc main_v8)
      = addf (Host.reduceAdd (F := Ideal)
          (shapeCast S8 (extractStridedSlice S8x1x1 ![0, 0, 0] out slices_S8x8x128_S8x1x1_0_0_0) shapeCasts_S8x1x1_S8)
          (constant (F := Ideal) S_ .f32 0x00000000#32) reducesTo_S8_S_d0 h_S_) (secondTerm x0 x1 x3) := by
    subst hout h0 h1 h3
    unfold secondTerm
    after_results
    rfl
  rw [e]
  exact congrArg (· + secondTerm x0 x1 x3 i) (tail_sum out i)

end Cert.KernelIdeal.Tail

end
-- ==== Proof.RefTerm.lean ====
import proofs.«121765_j575525618299_2_alg».proof.Proof.Gen.ReferenceIdeal.Read
import Idealize.ShloMosaic.Lib.ValueIdx
import Idealize.ShloMosaic.PureOps.Ideal.Laws

/-!
# The reference's first term as a plain triple sum

At the ideal values the reference's first scalar is the total, over every row `R` and column `c` of the
`[8192, 64]` array, of the row-by-column product `(∑ J, Θ[R, J] · F[J, c])` times `F[R, c]`. The zero the sum
starts from is the extended real `0` and drops out by `0 + x = x`.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The left operand's index of the product at output `(R, c)` and contraction coordinate `J` is `(R, J)`. -/
theorem lidx_ix2 (R : Fin 8192) (c : Fin 64) (J : Fin 8192) :
    lidx_main_v0 (ix2 R c) J = ix2 R J :=
  funext fun a => Fin.ext (by match a with | ⟨0, _⟩ => rfl | ⟨1, _⟩ => rfl)

/-- The right operand's index of the product at output `(R, c)` and contraction coordinate `J` is `(J, c)`. -/
theorem ridx_ix2 (R : Fin 8192) (c : Fin 64) (J : Fin 8192) :
    ridx_main_v0 (ix2 R c) J = ix2 J c :=
  funext fun a => Fin.ext (by match a with | ⟨0, _⟩ => rfl | ⟨1, _⟩ => rfl)

/-- The product-then-scale stage at `(R, c)`: `(∑ J, Θ[R, J] · F[J, c]) · F[R, c]`. -/
theorem val_main_v1_ix2 (x0 : (⟨S8192x64, .f32⟩ : BufTy).Contents (Elt Ideal))
    (x2 : (⟨S8192x8192, .f32⟩ : BufTy).Contents (Elt Ideal)) (R : Fin 8192) (c : Fin 64) :
    val_main_v1 (F := Ideal) x0 x2 (ix2 R c)
      = (∑ J : Fin 8192, x2 (ix2 R J) * x0 (ix2 J c)) * x0 (ix2 R c) := by
  rw [val_main_v1_apply, val_main_v0_apply, Ideal.mulf_def]
  simp only [lidx_ix2, ridx_ix2]

/-- The reference's first scalar: the total over rows and columns of `(∑ J, Θ[R, J] · F[J, c]) · F[R, c]`. -/
theorem val_main_v2_eq (x0 : (⟨S8192x64, .f32⟩ : BufTy).Contents (Elt Ideal))
    (x2 : (⟨S8192x8192, .f32⟩ : BufTy).Contents (Elt Ideal)) (i : S_.Idx) :
    val_main_v2 (F := Ideal) x0 x2 i
      = ∑ R : Fin 8192, ∑ c : Fin 64, (∑ J : Fin 8192, x2 (ix2 R J) * x0 (ix2 J c)) * x0 (ix2 R c) := by
  rw [val_main_v2_apply, val_main_cst_apply, Ideal.ofBits_def, Ideal.ofBits_zero_f32, zero_add, sum_idx2]
  exact Finset.sum_congr rfl fun R _ => Finset.sum_congr rfl fun c _ => val_main_v1_ix2 x0 x2 R c

end Cert.ReferenceIdeal.RefValue

end
-- ==== Proof.IResult.lean ====
import proofs.«121765_j575525618299_2_alg».proof.Proof.ILaunch
import proofs.«121765_j575525618299_2_alg».proof.Proof.IValue
import proofs.«121765_j575525618299_2_alg».proof.Proof.HostTail
import proofs.«121765_j575525618299_2_alg».proof.Proof.RefTerm

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)
open Idealize.ShloMosaic.ValueIdx (ix2 ix3)

variable (m : (ℓ : Loc nD τ sig) → Buf (Elt Ideal) ℓ) (ρ : Dev nD → PrngReg)

/-! ## The kernel program's result, and the reference's -/

/-- The result the kernel program ends with: the sum over all rows and columns of (first operand × second operand)
    entrywise times the second operand — the eight row tiles' totals re-associated — plus the second term. -/
theorem result_value (c : Dev nD) (i : S_.Idx) :
    endVal m c (Proc.devRef .tc main_v8) i
      = (∑ R : Fin 8192, ∑ cc : Fin 64, (∑ J : Fin 8192, opTheta m c R J * opPhi m c J cc) * opPhi m c R cc)
        + Tail.secondTerm (m ((c : Thread nD τ).loc main_arg0)) (m ((c : Thread nD τ).loc main_arg1)) (m ((c : Thread nD τ).loc main_arg3)) i := by
  refine (Tail.after_main_v8 (exitVal (entryVal m c) ((dats m 0 c).arrAt 3 cfg0.N)) (outArray m c)
    (m ((c : Thread nD τ).loc main_arg0)) (m ((c : Thread nD τ).loc main_arg1)) (m ((c : Thread nD τ).loc main_arg3))
    ((exitVal_out _ _).trans (final_out m c)) ((exitVal_main_arg0 _ _).trans (entryAt_arg0 m c))
    ((exitVal_main_arg1 _ _).trans (entryAt_arg1 m c)) ((exitVal_main_arg3 _ _).trans (entryAt_arg3 m c)) i).trans ?_
  refine congrArg (· + _) ?_
  exact TileLaw.tile_law_acc4 (opTheta m c) (opPhi m c)

/-- The reference's result, as its generated run states it, is the kernel program's result when the two programs
    are given the same arguments: the first terms by the re-association above, the second terms one function. -/
theorem reference_eq (c : Dev nD) :
    Cert.ReferenceIdeal.Read.val_main_v7 (F := Ideal) (m ((c : Thread nD τ).loc main_arg0)) (m ((c : Thread nD τ).loc main_arg1))
        (m ((c : Thread nD τ).loc main_arg2)) (m ((c : Thread nD τ).loc main_arg3))
      = endVal m c (Proc.devRef .tc main_v8) := by
  funext i
  rw [Cert.ReferenceIdeal.Read.val_main_v7_apply, Cert.ReferenceIdeal.RefValue.val_main_v2_eq, result_value]
  rfl

end Cert.KernelIdeal.Fr

end
-- ==== Proof.lean ====
/-
  The kernel streams row tiles of the first operand Θ (8192 × 8192) against the second operand Φ (8192 × 64): for each
  of eight row tiles it accumulates, over four contraction steps, the tile of Θ·Φ in a scratch buffer (reset at the
  first step), and at the last step stores the tile's total Σ_{r,c} (Θ·Φ)[r,c]·Φ[r,c]; the host then adds the eight
  totals and the second term λ·‖Ψᵀ Φ‖². The reference computes Σ_{R,c} (Θ·Φ)[R,c]·Φ[R,c] in one piece and adds the
  same second term. Over the extended reals the two first terms are one sum re-associated (addition is associative
  and commutative, and 0 + x = x): no finiteness is needed and the precondition is never opened.

  Both kernel programs read Φ through two windows of one array; each window holds half of the array for the
  duration of the region, and the halves are joined again before the host operations that follow it.
-/
import proofs.«121765_j575525618299_2_alg».proof.Defs
import proofs.«121765_j575525618299_2_alg».proof.Proof.Gen.Kernel
import proofs.«121765_j575525618299_2_alg».proof.Proof.Gen.KernelIdeal
import proofs.«121765_j575525618299_2_alg».proof.Proof.Gen.ReferenceIdeal
import proofs.«121765_j575525618299_2_alg».proof.Proof.Gen.Pre_finite_inputs
import proofs.«121765_j575525618299_2_alg».proof.Proof.Gen.ReferenceIdeal.Run
import proofs.«121765_j575525618299_2_alg».proof.Proof.KLaunch
import proofs.«121765_j575525618299_2_alg».proof.Proof.IResult
import Idealize.ShloMosaic.Adequacy
import Idealize.ShloMosaic.Init

noncomputable section

namespace Cert.Proof

open Idealize.ShloMosaic Idealize.ShloMosaic.TcCoe Idealize.SL.Sem

/-- The kernel program, read at the word level, runs to its end and leaves its arguments as they were. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun _ h c => (h c).2) (Cert.Kernel.Fr.run_main (F := Bits) m ρ)

/-- So does its reading over the extended reals. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun _ h c => (h c).2) (Cert.KernelIdeal.Fr.run_main (F := Ideal) m ρ)

/-- The reference is ten host operations: its generated run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- From the same arguments the two programs end with the same result: the kernel program's, read off its run, is
    the reference's stated term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fr.endVal m c (Proc.devRef .tc Cert.KernelIdeal.main_v8),
    Cert.KernelIdeal.Fr.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2, Cert.ReferenceIdeal.Read.val_main_v7_eq]
  exact Cert.KernelIdeal.Fr.reference_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
